-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S5000x128 : Shape := ⟨2, ![5000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 102
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S50000x128, .f32⟩
  | .hbm, ⟨84, _⟩ => ⟨S50000x40, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x40, .f32⟩
  | .hbm, ⟨94, _⟩ => ⟨S850000x1, .f32⟩
  | .hbm, ⟨95, _⟩ => ⟨S850000x40, .f32⟩
  | .hbm, ⟨96, _⟩ => ⟨S850000x40, .f32⟩
  | .hbm, ⟨97, _⟩ => ⟨S_, .f32⟩
  | .hbm, ⟨98, _⟩ => ⟨S50000x40, .f32⟩
  | .hbm, ⟨99, _⟩ => ⟨S850000x1, .i32⟩
  | .hbm, ⟨100, _⟩ => ⟨S50000x40, .f32⟩
  | .hbm, ⟨101, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S2000x128, .f32⟩
  | .local _ .vmem, ⟨21, _⟩ => ⟨S2000x128, .f32⟩
  | .local _ .vmem, ⟨22, _⟩ => ⟨S128x40, .f32⟩
  | .local _ .vmem, ⟨23, _⟩ => ⟨S2000x40, .f32⟩
  | .local _ .vmem, ⟨24, _⟩ => ⟨S2000x40, .f32⟩
  | .local _ .vmem, ⟨25, _⟩ => ⟨S5000x40, .f32⟩
  | .local _ .vmem, ⟨26, _⟩ => ⟨S5000x40, .f32⟩
  | .local _ .vmem, ⟨27, _⟩ => ⟨S40, .f32⟩
  | .local _ .vmem, ⟨28, _⟩ => ⟨S5000x40, .f32⟩
  | .local _ .vmem, ⟨29, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S50000x40.size a
  hwx4_2 : ∀ i : grid4.Coords, EltTy.bits .f32 = 32 ∨ (Rect.block (s := S50000x40) S2000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S40.size a ≤ S40.size a
  hwx5_1 : ∀ i : grid5.Coords, EltTy.bits .f32 = 32 ∨ (Rect.block (s := S40) S40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 195
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x128, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x40, .f32⟩
  | _ => ⟨S50000x256, .f32⟩

abbrev hbmTy0_1 (i : Nat) : BufTy := match i % 128 with
  | 0 => ⟨S_, .f32⟩
  | 1 => ⟨S850000, .f32⟩
  | 2 => ⟨S_, .f32⟩
  | 3 => ⟨S50000, .f32⟩
  | 4 => ⟨S850000x1, .i32⟩
  | 5 => ⟨S50000, .f32⟩
  | 6 => ⟨S_, .f32⟩
  | 7 => ⟨S50000, .f32⟩
  | 8 => ⟨S50000, .i1⟩
  | 9 => ⟨S50000, .f32⟩
  | 10 => ⟨S_, .f32⟩
  | 11 => ⟨S_, .f32⟩
  | 12 => ⟨S50000, .f32⟩
  | 13 => ⟨S50000, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S850000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x40, .f32⟩
  | 42 => ⟨S850000x1, .f32⟩
  | 43 => ⟨S850000x40, .f32⟩
  | 44 => ⟨S850000x40, .f32⟩
  | 45 => ⟨S_, .f32⟩
  | 46 => ⟨S50000x40, .f32⟩
  | 47 => ⟨S850000x1, .i32⟩
  | 48 => ⟨S50000x40, .f32⟩
  | 49 => ⟨S1x40, .f32⟩
  | 50 => ⟨S50000x40, .f32⟩
  | 51 => ⟨S50000x40, .f32⟩
  | 52 => ⟨S_, .f32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x40, .f32⟩
  | 59 => ⟨S50000x40, .f32⟩
  | 60 => ⟨S50000x40, .f32⟩
  | 61 => ⟨S_, .f32⟩
  | 62 => ⟨S50000, .f32⟩
  | 63 => ⟨S50000x1, .f32⟩
  | 64 => ⟨S50000x1, .f32⟩
  | 65 => ⟨S50000x40, .f32⟩
  | 66 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_call4_v0 : Ref sig .tc := ⟨.hbm, 139, rfl⟩
abbrev main_call4_v1 : Ref sig .tc := ⟨.hbm, 140, rfl⟩
abbrev main_v97 : Ref sig .tc := ⟨.hbm, 141, rfl⟩
abbrev main_c_24 : Ref sig .tc := ⟨.hbm, 142, rfl⟩
abbrev main_v98 : Ref sig .tc := ⟨.hbm, 143, rfl⟩
abbrev main_v99 : Ref sig .tc := ⟨.hbm, 144, rfl⟩
abbrev main_c_25 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_26 : Ref sig .tc := ⟨.hbm, 151, rfl⟩
abbrev main_v105 : Ref sig .tc := ⟨.hbm, 152, rfl⟩
abbrev main_v106 : Ref sig .tc := ⟨.hbm, 153, rfl⟩
abbrev main_c_27 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_c_29 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_30 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_call5_cst : Ref sig .tc := ⟨.hbm, 180, rfl⟩
abbrev main_call5_v0 : Ref sig .tc := ⟨.hbm, 181, rfl⟩
abbrev main_call5_cst_0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_call5_v5 : Ref sig .tc := ⟨.hbm, 187, rfl⟩
abbrev main_call5_v6 : Ref sig .tc := ⟨.hbm, 188, rfl⟩
abbrev main_call5_cst_1 : Ref sig .tc := ⟨.hbm, 189, rfl⟩
abbrev main_call5_v7 : Ref sig .tc := ⟨.hbm, 190, rfl⟩
abbrev main_call5_v8 : Ref sig .tc := ⟨.hbm, 191, rfl⟩
abbrev main_call5_v9 : Ref sig .tc := ⟨.hbm, 192, rfl⟩
abbrev main_call5_v10 : Ref sig .tc := ⟨.hbm, 193, rfl⟩
abbrev main_v129 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The kernel program's run with its result named.  The program is six kernel regions among stretches of host
  operations; the contents of every buffer at each boundary are a fold from the launch memory, and the last
  boundary's contents are `W12`.  Every weakly fair execution ends with each unscoped buffer at `W12`: read at the
  result buffer this names the result, read at the arguments it gives them back as launched.
-/
import proofs.«101067_j10136122819080_2_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the eight argument arrays end as launched. -/
theorem run_value : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.GcnRun

end
-- ==== Proof.Network.lean ====
/-
  The network both programs compute, written once as a composition of whole-array operations on extended reals.

  A graph convolution layer on N = 50000 nodes: from the 800000 given edges and one self loop per node (850000
  edges in all, sources `srcIdx`, targets `dstIdx`), with deg(v) the number of edges into v and
  dinv(v) = deg(v)^(-1/2) where deg(v) > 0 (0 elsewhere), the layer sends features h to
      out(v, ·) = Σ_{edges e into v} dinv(src e) · dinv(dst e) · (h · W)(src e, ·)  +  b.
  An index read from the edge list is wrapped once (a negative one has 50000 added) before it selects a row.
  The network is three such layers, 256 → 128 → 128 → 40 features, a clamp at zero after the first two, and a
  row-wise log-softmax after the third:  z − max_c z − log Σ_c exp (z − max_c z).
-/
import proofs.«101067_j10136122819080_2_alg».proof.ReferenceIdeal
import proofs.«101067_j10136122819080_2_alg».proof.Proof.Gen.ReferenceIdeal
import Idealize.ShloMosaic.PureOps.Ideal

noncomputable section

namespace Cert.Gcn

open Idealize.ShloMosaic Cert.ReferenceIdeal Cert.ReferenceIdeal.Facts₀ Cert.ReferenceIdeal.Facts

/-- The edges' source nodes: row 0 of the edge list, then every node once (the self loops). -/
def srcIdx (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' target nodes: row 1 of the edge list, then every node once. -/
def dstIdx (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A vector of node numbers as the column of row selectors: a negative entry has 50000 added. -/
def wrapCol (v : IVec S850000 32) : IVec S850000x1 32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- deg: one added at every edge's target, from zero. -/
def deg (e : IVec S2x800000 32) : FVec Ideal S50000 .f32 :=
  Host.scatterAdd scatter_S50000_S850000x1_S850000_n_0_0_1 (broadcastInDim S50000 ![] bcast_S_S50000 (constant (F := Ideal) S_ .f32 0x00000000#32)) (broadcastInDim S850000x1 ![0] bcast_S850000_S850000x1_0 (dstIdx e)) (broadcastInDim S850000 ![] bcast_S_S850000 (constant (F := Ideal) S_ .f32 0x3F800000#32))

/-- dinv: deg^(-1/2) where deg > 0, zero elsewhere. -/
def dinv (e : IVec S2x800000 32) : FVec Ideal S50000 .f32 :=
  select (cmpf .ogt (deg e) (broadcastInDim S50000 ![] bcast_S_S50000 (constant (F := Ideal) S_ .f32 0x00000000#32))) (Host.rsqrt (deg e)) (broadcastInDim S50000 ![] bcast_S_S50000 (id (constant (F := Ideal) S_ .f32 0x00000000#32)))

/-- The edge weights dinv(src) · dinv(dst). -/
def norm (e : IVec S2x800000 32) : FVec Ideal S850000 .f32 :=
  mulf (Host.gather gather_S50000_S850000x1_S850000_n_0_n_n_0_1_1 (dinv e) (wrapCol (srcIdx e))) (Host.gather gather_S50000_S850000x1_S850000_n_0_n_n_0_1_1 (dinv e) (wrapCol (dstIdx e)))

/-- Message passing on 128 features: every edge carries its source's row, scaled by the edge weight, into its target's row. -/
def hop128 (e : IVec S2x800000 32) (h : FVec Ideal S50000x128 .f32) : FVec Ideal S50000x128 .f32 :=
  Host.scatterAdd scatter_S50000x128_S850000x1_S850000x128_1_0_0_1 (broadcastInDim S50000x128 ![] bcast_S_S50000x128 (constant (F := Ideal) S_ .f32 0x00000000#32)) (broadcastInDim S850000x1 ![0] bcast_S850000_S850000x1_0 (dstIdx e)) (mulf (Host.gather gather_S50000x128_S850000x1_S850000x128_1_0_n_n_0_1_1128 h (wrapCol (srcIdx e))) (broadcastInDim S850000x128 ![0, 1] bcast_S850000x1_S850000x128_0_1 (broadcastInDim S850000x1 ![0] bcast_S850000_S850000x1_0 (norm e))))

/-- Message passing on 40 features. -/
def hop40 (e : IVec S2x800000 32) (h : FVec Ideal S50000x40 .f32) : FVec Ideal S50000x40 .f32 :=
  Host.scatterAdd scatter_S50000x40_S850000x1_S850000x40_1_0_0_1 (broadcastInDim S50000x40 ![] bcast_S_S50000x40 (constant (F := Ideal) S_ .f32 0x00000000#32)) (broadcastInDim S850000x1 ![0] bcast_S850000_S850000x1_0 (dstIdx e)) (mulf (Host.gather gather_S50000x40_S850000x1_S850000x40_1_0_n_n_0_1_140 h (wrapCol (srcIdx e))) (broadcastInDim S850000x40 ![0, 1] bcast_S850000x1_S850000x40_0_1 (broadcastInDim S850000x1 ![0] bcast_S850000_S850000x1_0 (norm e))))

/-- The three feature maps h ↦ h · W. -/
def dense1 (x : FVec Ideal S50000x256 .f32) (w : FVec Ideal S256x128 .f32) : FVec Ideal S50000x128 .f32 :=
  Host.dotGeneral dot_S50000x256_S256x128_S50000x128_1_0_0_1_n_n none x w
def dense2 (x : FVec Ideal S50000x128 .f32) (w : FVec Ideal S128x128 .f32) : FVec Ideal S50000x128 .f32 :=
  Host.dotGeneral dot_S50000x128_S128x128_S50000x128_1_0_0_1_n_n none x w
def dense3 (x : FVec Ideal S50000x128 .f32) (w : FVec Ideal S128x40 .f32) : FVec Ideal S50000x40 .f32 :=
  Host.dotGeneral dot_S50000x128_S128x40_S50000x40_1_0_0_1_n_n none x w

/-- The bias added to every row, then the clamp at zero. -/
def biasRelu (a : FVec Ideal S50000x128 .f32) (b : FVec Ideal S128 .f32) : FVec Ideal S50000x128 .f32 :=
  maximumf (addf a (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))

/-- The bias added to every row of the 40-feature array. -/
def bias40 (a : FVec Ideal S50000x40 .f32) (b : FVec Ideal S40 .f32) : FVec Ideal S50000x40 .f32 :=
  addf a (broadcastInDim S50000x40 ![0, 1] bcast_S1x40_S50000x40_0_1 (broadcastInDim S1x40 ![1] bcast_S40_S1x40_1 b))

/-- Each row's maximum (the fold starts from -∞ and is joined with -∞ once more). -/
def rowMax (z : FVec Ideal S50000x40 .f32) : FVec Ideal S50000 .f32 :=
  maximumf (broadcastInDim S50000 ![] bcast_S_S50000 (constant (F := Ideal) S_ .f32 0xFF800000#32)) (Host.reduce FloatOps.maximumf z (constant (F := Ideal) S_ .f32 0xFF800000#32) reducesTo_S50000x40_S50000_d1 h_S_)

/-- A per-row number spread along its row. -/
def alongRows (v : FVec Ideal S50000 .f32) : FVec Ideal S50000x40 .f32 :=
  broadcastInDim S50000x40 ![0, 1] bcast_S50000x1_S50000x40_0_1 (broadcastInDim S50000x1 ![0] bcast_S50000_S50000x1_0 v)

/-- z minus its row's maximum. -/
def shifted (z : FVec Ideal S50000x40 .f32) : FVec Ideal S50000x40 .f32 := subf z (alongRows (rowMax z))

/-- The row-wise log-softmax. -/
def logSoftmax (z : FVec Ideal S50000x40 .f32) : FVec Ideal S50000x40 .f32 :=
  subf (shifted z) (broadcastInDim S50000x40 ![0, 1] bcast_S50000x1_S50000x40_0_1 (Host.log (broadcastInDim S50000x1 ![0] bcast_S50000_S50000x1_0 (Host.reduceAdd (Host.exp (shifted z)) (constant (F := Ideal) S_ .f32 0x00000000#32) reducesTo_S50000x40_S50000_d1 h_S_))))

/-- The three-layer network. -/
def net (x : FVec Ideal S50000x256 .f32) (e : IVec S2x800000 32) (w1 : FVec Ideal S256x128 .f32) (b1 : FVec Ideal S128 .f32)
    (w2 : FVec Ideal S128x128 .f32) (b2 : FVec Ideal S128 .f32) (w3 : FVec Ideal S128x40 .f32) (b3 : FVec Ideal S40 .f32) :
    FVec Ideal S50000x40 .f32 :=
  logSoftmax (bias40 (hop40 e (dense3 (biasRelu (hop128 e (dense2 (biasRelu (hop128 e (dense1 x w1)) b1) w2)) b2) w3)) b3)

end Cert.Gcn

end
-- ==== Proof.KernelHost.lean ====
/-
  The kernel program's stretches of host operations, each read as a function of the buffer contents it starts from.
  The stretches before the first region build the edge lists (sources and targets with the self loops appended), the
  degrees, their inverse square roots and the edge weights; the stretch after each product region is one message-passing
  step.  Each statement is over an arbitrary valuation S of the buffers, with hypotheses naming the few buffers the
  stretch reads, so a later stretch never reopens an earlier one.
-/
import proofs.«101067_j10136122819080_2_alg».proof.Proof.Gen.KernelIdeal.Frame
import proofs.«101067_j10136122819080_2_alg».proof.Proof.Network
import Idealize.ShloMosaic.Lib.StableHlo.Run

set_option maxRecDepth 16384

noncomputable section

namespace Cert.KernelIdeal.GcnHost

open Idealize.ShloMosaic Idealize.ShloMosaic.TcCoe Idealize.SL.Sem Idealize.ShloMosaic.StableHlo
open Cert.KernelIdeal Cert.KernelIdeal.Gen

variable (S : Valuation τ sig (Elt Ideal)) (e : IVec S2x800000 32)

/-! ## Before the first region -/

/-- The edges' sources. -/
theorem edges_src (h1 : (S (Proc.devRef .tc main_arg1) : IVec S2x800000 32) = e) :
    after hostOps0 S (Proc.devRef .tc main_v3) = Cert.Gcn.srcIdx e := by
  subst h1
  after_results_simp
  rfl

/-- The edges' targets. -/
theorem edges_dst (h1 : (S (Proc.devRef .tc main_arg1) : IVec S2x800000 32) = e) :
    after hostOps0 S (Proc.devRef .tc main_v6) = Cert.Gcn.dstIdx e := by
  subst h1
  after_results_simp
  rfl

/-- Where the degree is positive. -/
theorem deg_pos (h1 : (S (Proc.devRef .tc main_arg1) : IVec S2x800000 32) = e) :
    after hostOps0 S (Proc.devRef .tc main_v12)
      = cmpf .ogt (Cert.Gcn.deg e) (broadcastInDim S50000 ![] Cert.KernelIdeal.Facts₀.bcast_S_S50000 (constant (F := Ideal) S_ .f32 0x00000000#32)) := by
  subst h1
  after_results_simp
  rfl

/-- The degree's inverse square root. -/
theorem deg_rsqrt (h1 : (S (Proc.devRef .tc main_arg1) : IVec S2x800000 32) = e) :
    after hostOps0 S (Proc.devRef .tc main_v13) = Host.rsqrt (Cert.Gcn.deg e) := by
  subst h1
  after_results_simp
  rfl

/-- The zero that fills in where the degree is not positive. -/
theorem zero_cst : after hostOps0 S (Proc.devRef .tc main_cst_2) = constant (F := Ideal) S_ .f32 0x00000000#32 := by
  after_results_simp

/-- The stretch `hostOps0` writes none of these buffers. -/
theorem keep_0 :
    after hostOps0 S (Proc.devRef .tc main_arg0) = S (Proc.devRef .tc main_arg0)
    ∧ after hostOps0 S (Proc.devRef .tc main_arg2) = S (Proc.devRef .tc main_arg2)
    ∧ after hostOps0 S (Proc.devRef .tc main_arg3) = S (Proc.devRef .tc main_arg3)
    ∧ after hostOps0 S (Proc.devRef .tc main_arg4) = S (Proc.devRef .tc main_arg4)
    ∧ after hostOps0 S (Proc.devRef .tc main_arg5) = S (Proc.devRef .tc main_arg5)
    ∧ after hostOps0 S (Proc.devRef .tc main_arg6) = S (Proc.devRef .tc main_arg6)
    ∧ after hostOps0 S (Proc.devRef .tc main_arg7) = S (Proc.devRef .tc main_arg7) := by
  refine ⟨?_, ?_, ?_, ?_, ?_, ?_, ?_⟩ <;> after_results_simp

/-- The selection `where(cond, a, zero)` of the second stretch, for any condition, any array and any scalar. -/
theorem where_eq (cm : IVec S50000 1) (rs : FVec Ideal S50000 .f32) (c0 : FVec Ideal S_ .f32)
    (h12 : (S (Proc.devRef .tc main_v12) : IVec S50000 1) = cm)
    (h13 : (S (Proc.devRef .tc main_v13) : FVec Ideal S50000 .f32) = rs)
    (hc : (S (Proc.devRef .tc main_cst_2) : FVec Ideal S_ .f32) = c0) :
    after hostOps0_1 S (Proc.devRef .tc main_v14)
      = select cm rs (broadcastInDim S50000 ![] Cert.KernelIdeal.Facts₀.bcast_S_S50000 (id c0)) := by
  subst h12 h13 hc
  after_results
  rfl

/-- dinv: the inverse square root where the degree is positive, zero elsewhere. -/
theorem dinv_eq
    (h12 : (S (Proc.devRef .tc main_v12) : IVec S50000 1)
      = cmpf .ogt (Cert.Gcn.deg e) (broadcastInDim S50000 ![] Cert.KernelIdeal.Facts₀.bcast_S_S50000 (constant (F := Ideal) S_ .f32 0x00000000#32)))
    (h13 : (S (Proc.devRef .tc main_v13) : FVec Ideal S50000 .f32) = Host.rsqrt (Cert.Gcn.deg e))
    (hc : (S (Proc.devRef .tc main_cst_2) : FVec Ideal S_ .f32) = constant (F := Ideal) S_ .f32 0x00000000#32) :
    after hostOps0_1 S (Proc.devRef .tc main_v14) = Cert.Gcn.dinv e :=
  where_eq S _ _ _ h12 h13 hc

/-- The stretch `hostOps0_1` writes none of these buffers. -/
theorem keep_0_1 :
    after hostOps0_1 S (Proc.devRef .tc main_v3) = S (Proc.devRef .tc main_v3)
    ∧ after hostOps0_1 S (Proc.devRef .tc main_v6) = S (Proc.devRef .tc main_v6)
    ∧ after hostOps0_1 S (Proc.devRef .tc main_arg0) = S (Proc.devRef .tc main_arg0)
    ∧ after hostOps0_1 S (Proc.devRef .tc main_arg2) = S (Proc.devRef .tc main_arg2)
    ∧ after hostOps0_1 S (Proc.devRef .tc main_arg3) = S (Proc.devRef .tc main_arg3)
    ∧ after hostOps0_1 S (Proc.devRef .tc main_arg4) = S (Proc.devRef .tc main_arg4)
    ∧ after hostOps0_1 S (Proc.devRef .tc main_arg5) = S (Proc.devRef .tc main_arg5)
    ∧ after hostOps0_1 S (Proc.devRef .tc main_arg6) = S (Proc.devRef .tc main_arg6)
    ∧ after hostOps0_1 S (Proc.devRef .tc main_arg7) = S (Proc.devRef .tc main_arg7) := by
  refine ⟨?_, ?_, ?_, ?_, ?_, ?_, ?_, ?_, ?_⟩ <;> after_results_simp

/-- The edge weights. -/
theorem norm_eq
    (h14 : (S (Proc.devRef .tc main_v14) : FVec Ideal S50000 .f32) = Cert.Gcn.dinv e)
    (h3 : (S (Proc.devRef .tc main_v3) : IVec S850000 32) = Cert.Gcn.srcIdx e)
    (h6 : (S (Proc.devRef .tc main_v6) : IVec S850000 32) = Cert.Gcn.dstIdx e) :
    after hostOps0_2 S (Proc.devRef .tc main_v29) = Cert.Gcn.norm e := by
  after_results_simp
  rw [h14, h3, h6]
  rfl

/-- The stretch `hostOps0_2` writes none of these buffers. -/
theorem keep_0_2 :
    after hostOps0_2 S (Proc.devRef .tc main_v3) = S (Proc.devRef .tc main_v3)
    ∧ after hostOps0_2 S (Proc.devRef .tc main_v6) = S (Proc.devRef .tc main_v6)
    ∧ after hostOps0_2 S (Proc.devRef .tc main_arg0) = S (Proc.devRef .tc main_arg0)
    ∧ after hostOps0_2 S (Proc.devRef .tc main_arg2) = S (Proc.devRef .tc main_arg2)
    ∧ after hostOps0_2 S (Proc.devRef .tc main_arg3) = S (Proc.devRef .tc main_arg3)
    ∧ after hostOps0_2 S (Proc.devRef .tc main_arg4) = S (Proc.devRef .tc main_arg4)
    ∧ after hostOps0_2 S (Proc.devRef .tc main_arg5) = S (Proc.devRef .tc main_arg5)
    ∧ after hostOps0_2 S (Proc.devRef .tc main_arg6) = S (Proc.devRef .tc main_arg6)
    ∧ after hostOps0_2 S (Proc.devRef .tc main_arg7) = S (Proc.devRef .tc main_arg7) := by
  refine ⟨?_, ?_, ?_, ?_, ?_, ?_, ?_, ?_, ?_⟩ <;> after_results_simp

/-! ## After each product region -/

/-- One message-passing step on 128 features: the stretch after a product region. -/
theorem hop1 (h : FVec Ideal S50000x128 .f32)
    (h3 : (S (Proc.devRef .tc main_v3) : IVec S850000 32) = Cert.Gcn.srcIdx e)
    (h6 : (S (Proc.devRef .tc main_v6) : IVec S850000 32) = Cert.Gcn.dstIdx e)
    (hn : (S (Proc.devRef .tc main_v29) : FVec Ideal S850000 .f32) = Cert.Gcn.norm e)
    (hh : (S (Proc.devRef .tc main_v30) : FVec Ideal S50000x128 .f32) = h) :
    after hostOps1 S (Proc.devRef .tc main_v43) = Cert.Gcn.hop128 e h := by
  subst hh
  after_results_simp
  rw [h3, h6, hn]
  rfl

/-- The stretch `hostOps1` writes none of these buffers. -/
theorem keep_1 :
    after hostOps1 S (Proc.devRef .tc main_v3) = S (Proc.devRef .tc main_v3)
    ∧ after hostOps1 S (Proc.devRef .tc main_v6) = S (Proc.devRef .tc main_v6)
    ∧ after hostOps1 S (Proc.devRef .tc main_v29) = S (Proc.devRef .tc main_v29)
    ∧ after hostOps1 S (Proc.devRef .tc main_arg3) = S (Proc.devRef .tc main_arg3)
    ∧ after hostOps1 S (Proc.devRef .tc main_arg4) = S (Proc.devRef .tc main_arg4)
    ∧ after hostOps1 S (Proc.devRef .tc main_arg5) = S (Proc.devRef .tc main_arg5)
    ∧ after hostOps1 S (Proc.devRef .tc main_arg6) = S (Proc.devRef .tc main_arg6)
    ∧ after hostOps1 S (Proc.devRef .tc main_arg7) = S (Proc.devRef .tc main_arg7) := by
  refine ⟨?_, ?_, ?_, ?_, ?_, ?_, ?_, ?_⟩ <;> after_results_simp

/-- One message-passing step on 128 features: the stretch after a product region. -/
theorem hop3 (h : FVec Ideal S50000x128 .f32)
    (h3 : (S (Proc.devRef .tc main_v3) : IVec S850000 32) = Cert.Gcn.srcIdx e)
    (h6 : (S (Proc.devRef .tc main_v6) : IVec S850000 32) = Cert.Gcn.dstIdx e)
    (hn : (S (Proc.devRef .tc main_v29) : FVec Ideal S850000 .f32) = Cert.Gcn.norm e)
    (hh : (S (Proc.devRef .tc main_v45) : FVec Ideal S50000x128 .f32) = h) :
    after hostOps3 S (Proc.devRef .tc main_v58) = Cert.Gcn.hop128 e h := by
  subst hh
  after_results_simp
  rw [h3, h6, hn]
  rfl

/-- The stretch `hostOps3` writes none of these buffers. -/
theorem keep_3 :
    after hostOps3 S (Proc.devRef .tc main_v3) = S (Proc.devRef .tc main_v3)
    ∧ after hostOps3 S (Proc.devRef .tc main_v6) = S (Proc.devRef .tc main_v6)
    ∧ after hostOps3 S (Proc.devRef .tc main_v29) = S (Proc.devRef .tc main_v29)
    ∧ after hostOps3 S (Proc.devRef .tc main_arg5) = S (Proc.devRef .tc main_arg5)
    ∧ after hostOps3 S (Proc.devRef .tc main_arg6) = S (Proc.devRef .tc main_arg6)
    ∧ after hostOps3 S (Proc.devRef .tc main_arg7) = S (Proc.devRef .tc main_arg7) := by
  refine ⟨?_, ?_, ?_, ?_, ?_, ?_⟩ <;> after_results_simp

/-- One message-passing step on 40 features: the stretch after a product region. -/
theorem hop5 (h : FVec Ideal S50000x40 .f32)
    (h3 : (S (Proc.devRef .tc main_v3) : IVec S850000 32) = Cert.Gcn.srcIdx e)
    (h6 : (S (Proc.devRef .tc main_v6) : IVec S850000 32) = Cert.Gcn.dstIdx e)
    (hn : (S (Proc.devRef .tc main_v29) : FVec Ideal S850000 .f32) = Cert.Gcn.norm e)
    (hh : (S (Proc.devRef .tc main_v60) : FVec Ideal S50000x40 .f32) = h) :
    after hostOps5 S (Proc.devRef .tc main_v73) = Cert.Gcn.hop40 e h := by
  subst hh
  after_results_simp
  rw [h3, h6, hn]
  rfl

/-- The stretch `hostOps5` writes none of these buffers. -/
theorem keep_5 :
    after hostOps5 S (Proc.devRef .tc main_arg7) = S (Proc.devRef .tc main_arg7) := by
  after_results_simp

end Cert.KernelIdeal.GcnHost

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«101067_j10136122819080_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.RegionProduct0.lean ====
/-
  Kernel region 0: a matrix product tiled over row blocks.  The grid has 25 points; point t reads rows
  2000·t … 2000·t + 1999 of the left operand (all 256 columns) and the whole right operand, and writes the same rows of the
  result.  The body rounds both blocks to bf16 (the identity on extended reals) and multiplies them into a zero
  accumulator, so entry (p, q) of the block is Σ_k left(p, k) · right(k, q): block t of the whole-array product.
  The 25 blocks tile the result, hence after the region the result array IS the product of the two arrays the
  region found (the first layer's x · W1).
-/
import proofs.«101067_j10136122819080_2_alg».proof.Proof.Gen.KernelIdeal.Frame
import proofs.«101067_j10136122819080_2_alg».proof.Proof.LibMatmulNN
import proofs.«101067_j10136122819080_2_alg».proof.Proof.LibDotNN
import Idealize.ShloMosaic.Lib.Pipeline.Value
import Idealize.ShloMosaic.Lib.ValueIdx

set_option maxRecDepth 16384

noncomputable section

namespace Cert.KernelIdeal.GcnRegion0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The left operand array as the region finds it. -/
abbrev leftArr (c : Dev nD) : FVec Ideal S50000x256 .f32 := V c (Pipeline.arrRef spec0 0)
/-- The right operand array as the region finds it. -/
abbrev rightArr (c : Dev nD) : FVec Ideal S256x128 .f32 := V c (Pipeline.arrRef spec0 1)

theorem hz : (![0, 0] : Fin 2 → Nat) = fun _ => 0 := funext fun a => by fin_cases a <;> rfl

/-- The index maps over the grid: the left operand's and the result's block row is the point, every other block
    coordinate is 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at entry (p, q) of a block: the inner product of the left block's row p with the right block's
    column q. -/
theorem body_apply (x0 : FVec Ideal S2000x256 .f32) (x1 : FVec Ideal S256x128 .f32) (p : Fin 2000) (q : Fin 128) :
    k0_pay1 (F := Ideal) x0 x1 (ix2 p q) = ∑ k : Fin 256, x0 (ix2 p k) * x1 (ix2 k q) := by
  unfold k0_pay1
  exact Cert.MatmulNN.matmul_zero_apply (φ₁ := .bf16) (φ₂ := .bf16) _ rfl none _ _ p q

/-- What point t writes back is block t of the product of the two arrays. -/
theorem flushed_eq (D : DotDims ⟨2, ![50000, 256]⟩ ⟨2, ![256, 128]⟩ ⟨2, ![50000, 128]⟩) (hD : D = DotDims.plain 50000 256 128)
    (c : Dev nD) (t : Fin cfg0.N) :
    (dat0 V c).flushed 2 t = ((cfg0.win 2).blk t).view.read (Elt Ideal)
      (Host.dotGeneral (F := Ideal) D none (leftArr V c) (rightArr V c)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := block_index t
  have ht : t.val < 25 := t.isLt
  funext j
  obtain ⟨p, q, rfl⟩ : ∃ (p : Fin 2000) (q : Fin 128), j = ix2 p q := ⟨j 0, j 1, eq_ix2 j⟩
  have hp : p.val < 2000 := p.isLt
  have hout : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  have hleft : ∀ k : Fin 256, ((cfg0.win 0).blk t).view.emb (ix2 p k) = ix2 (⟨t.val * 2000 + p.val, by omega⟩ : Fin 50000) k := by
    intro k; funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  have hright : ∀ k : Fin 256, ((cfg0.win 1).blk t).view.emb (ix2 k q) = ix2 k q := by
    intro k; funext a; apply Fin.ext
    match a with
    | ⟨0, _⟩ => show win0_1.index t (0 : Fin 2) * 256 + 1 * k.val = k.val; omega
    | ⟨1, _⟩ => show win0_1.index t (1 : Fin 2) * 128 + 1 * q.val = q.val; omega
  show k0_pay1 (F := Ideal) (iblk0 V c 0 t) (iblk0 V c 1 t) (ix2 p q)
    = Host.dotGeneral (F := Ideal) D none (leftArr V c) (rightArr V c)
        (((cfg0.win 2).blk t).view.emb (ix2 p q))
  rw [hout, body_apply, Cert.DotNN.dotGeneral_apply D hD]
  refine Finset.sum_congr rfl fun k _ => ?_
  show leftArr V c (((cfg0.win 0).blk t).view.emb (ix2 p k))
      * rightArr V c (((cfg0.win 1).blk t).view.emb (ix2 k q)) = _
  rw [hleft, hright]

/-- An index is in point t's block iff its row lies in the block's row range. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- The row blocks tile the result: row r lies in the block of point r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := block_index t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the result array is the product of the two arrays the region found. -/
theorem array_eq (D : DotDims ⟨2, ![50000, 256]⟩ ⟨2, ![256, 128]⟩ ⟨2, ![50000, 128]⟩) (hD : D = DotDims.plain 50000 256 128) (c : Dev nD) :
    (dat0 V c).arrAt 2 cfg0.N
      = Host.dotGeneral (F := Ideal) D none (leftArr V c) (rightArr V c) :=
  (dat0 V c).arrAt_eq_of_cover 2 _ (fun t _ => flushed_eq V D hD c t) (cover)

end Cert.KernelIdeal.GcnRegion0

end
-- ==== Proof.RegionProduct2.lean ====
/-
  Kernel region 2: a matrix product tiled over row blocks.  The grid has 25 points; point t reads rows
  2000·t … 2000·t + 1999 of the left operand (all 128 columns) and the whole right operand, and writes the same rows of the
  result.  The body casts the left block to its own shape, rounds both blocks to bf16 (the identity on extended reals) and multiplies them into a zero
  accumulator, so entry (p, q) of the block is Σ_k left(p, k) · right(k, q): block t of the whole-array product.
  The 25 blocks tile the result, hence after the region the result array IS the product of the two arrays the
  region found (the second layer's h · W2).
-/
import proofs.«101067_j10136122819080_2_alg».proof.Proof.Gen.KernelIdeal.Frame
import proofs.«101067_j10136122819080_2_alg».proof.Proof.LibMatmulNN
import proofs.«101067_j10136122819080_2_alg».proof.Proof.LibDotNN
import Idealize.ShloMosaic.Lib.Pipeline.Value
import Idealize.ShloMosaic.Lib.ValueIdx

set_option maxRecDepth 16384

noncomputable section

namespace Cert.KernelIdeal.GcnRegion2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The left operand array as the region finds it. -/
abbrev leftArr (c : Dev nD) : FVec Ideal S50000x128 .f32 := V c (Pipeline.arrRef spec2 0)
/-- The right operand array as the region finds it. -/
abbrev rightArr (c : Dev nD) : FVec Ideal S128x128 .f32 := V c (Pipeline.arrRef spec2 1)

theorem hz : (![0, 0] : Fin 2 → Nat) = fun _ => 0 := funext fun a => by fin_cases a <;> rfl

/-- The index maps over the grid: the left operand's and the result's block row is the point, every other block
    coordinate is 0. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at entry (p, q) of a block: the inner product of the left block's row p with the right block's
    column q. -/
theorem body_apply (x0 : FVec Ideal S2000x128 .f32) (x1 : FVec Ideal S128x128 .f32) (p : Fin 2000) (q : Fin 128) :
    k2_pay1 (F := Ideal) x0 x1 (ix2 p q) = ∑ k : Fin 128, x0 (ix2 p k) * x1 (ix2 k q) := by
  unfold k2_pay1
  refine (Cert.MatmulNN.matmul_zero_apply (φ₁ := .bf16) (φ₂ := .bf16) _ rfl none _ _ p q).trans ?_
  refine Finset.sum_congr rfl fun k _ => ?_
  show shapeCast S2000x128 x0 _ (ix2 p k) * x1 (ix2 k q) = _
  rw [shapeCast_self]

/-- What point t writes back is block t of the product of the two arrays. -/
theorem flushed_eq (D : DotDims ⟨2, ![50000, 128]⟩ ⟨2, ![128, 128]⟩ ⟨2, ![50000, 128]⟩) (hD : D = DotDims.plain 50000 128 128)
    (c : Dev nD) (t : Fin cfg2.N) :
    (dat2 V c).flushed 2 t = ((cfg2.win 2).blk t).view.read (Elt Ideal)
      (Host.dotGeneral (F := Ideal) D none (leftArr V c) (rightArr V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := block_index t
  have ht : t.val < 25 := t.isLt
  funext j
  obtain ⟨p, q, rfl⟩ : ∃ (p : Fin 2000) (q : Fin 128), j = ix2 p q := ⟨j 0, j 1, eq_ix2 j⟩
  have hp : p.val < 2000 := p.isLt
  have hout : ((cfg2.win 2).blk t).view.emb (ix2 p q) = ix2 (⟨t.val * 2000 + p.val, by omega⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  have hleft : ∀ k : Fin 128, ((cfg2.win 0).blk t).view.emb (ix2 p k) = ix2 (⟨t.val * 2000 + p.val, by omega⟩ : Fin 50000) k := by
    intro k; funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  have hright : ∀ k : Fin 128, ((cfg2.win 1).blk t).view.emb (ix2 k q) = ix2 k q := by
    intro k; funext a; apply Fin.ext
    match a with
    | ⟨0, _⟩ => show win2_1.index t (0 : Fin 2) * 128 + 1 * k.val = k.val; omega
    | ⟨1, _⟩ => show win2_1.index t (1 : Fin 2) * 128 + 1 * q.val = q.val; omega
  show k2_pay1 (F := Ideal) (iblk2 V c 0 t) (iblk2 V c 1 t) (ix2 p q)
    = Host.dotGeneral (F := Ideal) D none (leftArr V c) (rightArr V c)
        (((cfg2.win 2).blk t).view.emb (ix2 p q))
  rw [hout, body_apply, Cert.DotNN.dotGeneral_apply D hD]
  refine Finset.sum_congr rfl fun k _ => ?_
  show leftArr V c (((cfg2.win 0).blk t).view.emb (ix2 p k))
      * rightArr V c (((cfg2.win 1).blk t).view.emb (ix2 k q)) = _
  rw [hleft, hright]

/-- An index is in point t's block iff its row lies in the block's row range. -/
theorem mem_blk (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v45).slice (win2_2.rect t)).set ↔ _
  rw [View.set_slice_whole, Rect.mem_set_unit]
  exact Iff.rfl

/-- The row blocks tile the result: row r lies in the block of point r / 2000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1, e2, e3, e4, e5⟩ := block_index t
  have e4' : win2_2.index t (0 : Fin 2) = (i 0).val / 2000 := e4
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region the result array is the product of the two arrays the region found. -/
theorem array_eq (D : DotDims ⟨2, ![50000, 128]⟩ ⟨2, ![128, 128]⟩ ⟨2, ![50000, 128]⟩) (hD : D = DotDims.plain 50000 128 128) (c : Dev nD) :
    (dat2 V c).arrAt 2 cfg2.N
      = Host.dotGeneral (F := Ideal) D none (leftArr V c) (rightArr V c) :=
  (dat2 V c).arrAt_eq_of_cover 2 _ (fun t _ => flushed_eq V D hD c t) (cover)

end Cert.KernelIdeal.GcnRegion2

end
-- ==== Proof.RegionProduct4.lean ====
/-
  Kernel region 4: a matrix product tiled over row blocks.  The grid has 25 points; point t reads rows
  2000·t … 2000·t + 1999 of the left operand (all 128 columns) and the whole right operand, and writes the same rows of the
  result.  The body casts the left block to its own shape, rounds both blocks to bf16 (the identity on extended reals) and multiplies them into a zero
  accumulator, so entry (p, q) of the block is Σ_k left(p, k) · right(k, q): block t of the whole-array product.
  The 25 blocks tile the result, hence after the region the result array IS the product of the two arrays the
  region found (the third layer's h · W3).
-/
import proofs.«101067_j10136122819080_2_alg».proof.Proof.Gen.KernelIdeal.Frame
import proofs.«101067_j10136122819080_2_alg».proof.Proof.LibMatmulNN
import proofs.«101067_j10136122819080_2_alg».proof.Proof.LibDotNN
import Idealize.ShloMosaic.Lib.Pipeline.Value
import Idealize.ShloMosaic.Lib.ValueIdx

set_option maxRecDepth 16384

noncomputable section

namespace Cert.KernelIdeal.GcnRegion4

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The left operand array as the region finds it. -/
abbrev leftArr (c : Dev nD) : FVec Ideal S50000x128 .f32 := V c (Pipeline.arrRef spec4 0)
/-- The right operand array as the region finds it. -/
abbrev rightArr (c : Dev nD) : FVec Ideal S128x40 .f32 := V c (Pipeline.arrRef spec4 1)

theorem hz : (![0, 0] : Fin 2 → Nat) = fun _ => 0 := funext fun a => by fin_cases a <;> rfl

/-- The index maps over the grid: the left operand's and the result's block row is the point, every other block
    coordinate is 0. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's value at entry (p, q) of a block: the inner product of the left block's row p with the right block's
    column q. -/
theorem body_apply (x0 : FVec Ideal S2000x128 .f32) (x1 : FVec Ideal S128x40 .f32) (p : Fin 2000) (q : Fin 40) :
    k4_pay1 (F := Ideal) x0 x1 (ix2 p q) = ∑ k : Fin 128, x0 (ix2 p k) * x1 (ix2 k q) := by
  unfold k4_pay1
  refine (Cert.MatmulNN.matmul_zero_apply (φ₁ := .bf16) (φ₂ := .bf16) _ rfl none _ _ p q).trans ?_
  refine Finset.sum_congr rfl fun k _ => ?_
  show shapeCast S2000x128 x0 _ (ix2 p k) * x1 (ix2 k q) = _
  rw [shapeCast_self]

/-- What point t writes back is block t of the product of the two arrays. -/
theorem flushed_eq (D : DotDims ⟨2, ![50000, 128]⟩ ⟨2, ![128, 40]⟩ ⟨2, ![50000, 40]⟩) (hD : D = DotDims.plain 50000 128 40)
    (c : Dev nD) (t : Fin cfg4.N) :
    (dat4 V c).flushed 2 t = ((cfg4.win 2).blk t).view.read (Elt Ideal)
      (Host.dotGeneral (F := Ideal) D none (leftArr V c) (rightArr V c)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x40) hz]
  obtain ⟨e0, e1, e2, e3, e4, e5⟩ := block_index t
  have ht : t.val < 25 := t.isLt
  funext j
  obtain ⟨p, q, rfl⟩ : ∃ (p : Fin 2000) (q : Fin 40), j = ix2 p q := ⟨j 0, j 1, eq_ix2 j⟩
  have hp : p.val < 2000 := p.isLt
  have hout : ((cfg4.win 2).blk t).view.emb (ix2 p q) = ix2 (⟨t.val * 2000 + p.val, by omega⟩ : Fin 50000) q := by
    funext a; apply Fin.ext
    match a with
    | ⟨0, _⟩ => show win4_2.index t (0 : Fin 2) * 2000 + 1 * p.val = t.val * 2000 + p.val; omega
    | ⟨1, _⟩ => show win4_2.index t (1 : Fin 2) * 40 + 1 * q.val = q.val; omega
  have hleft : ∀ k : Fin 128, ((cfg4.win 0).blk t).view.emb (ix2 p k) = ix2 (⟨t.val * 2000 + p.val, by omega⟩ : Fin 50000) k := by
    intro k; funext a; apply Fin.ext
    match a with
    | ⟨0, _⟩ => show win4_0.index t (0 : Fin 2) * 2000 + 1 * p.val = t.val * 2000 + p.val; omega
    | ⟨1, _⟩ => show win4_0.index t (1 : Fin 2) * 128 + 1 * k.val = k.val; omega
  have hright : ∀ k : Fin 128, ((cfg4.win 1).blk t).view.emb (ix2 k q) = ix2 k q := by
    intro k; funext a; apply Fin.ext
    match a with
    | ⟨0, _⟩ => show win4_1.index t (0 : Fin 2) * 128 + 1 * k.val = k.val; omega
    | ⟨1, _⟩ => show win4_1.index t (1 : Fin 2) * 40 + 1 * q.val = q.val; omega
  show k4_pay1 (F := Ideal) (iblk4 V c 0 t) (iblk4 V c 1 t) (ix2 p q)
    = Host.dotGeneral (F := Ideal) D none (leftArr V c) (rightArr V c)
        (((cfg4.win 2).blk t).view.emb (ix2 p q))
  rw [hout, body_apply, Cert.DotNN.dotGeneral_apply D hD]
  refine Finset.sum_congr rfl fun k _ => ?_
  show leftArr V c (((cfg4.win 0).blk t).view.emb (ix2 p k))
      * rightArr V c (((cfg4.win 1).blk t).view.emb (ix2 k q)) = _
  rw [hleft, hright]

/-- An index is in point t's block iff its row lies in the block's row range. -/
theorem mem_blk (t : Fin cfg4.N) (i : S50000x40.Idx) :
    i ∈ ((cfg4.win 2).blk t).view.set ↔ ∀ a : Fin 2, win4_2.index t a * S2000x40.size a ≤ (i a).val
      ∧ (i a).val < win4_2.index t a * S2000x40.size a + S2000x40.size a := by
  show i ∈ ((View.whole main_v60).slice (win4_2.rect t)).set ↔ _
  rw [View.set_slice_whole, Rect.mem_set_unit]
  exact Iff.rfl

/-- The row blocks tile the result: row r lies in the block of point r / 2000. -/
theorem cover (i : S50000x40.Idx) :
    ∃ t : Fin cfg4.N, (cfg4.win 2).flush t = true ∧ i ∈ ((cfg4.win 2).blk t).view.set := by
  have hi0 : (i 0).val < 50000 := (i 0).isLt
  have hi1 : (i 1).val < 40 := (i 1).isLt
  have hN : cfg4.N = 25 := N_4
  let t : Fin cfg4.N := ⟨(i 0).val / 2000, by rw [hN]; omega⟩
  obtain ⟨e0, e1, e2, e3, e4, e5⟩ := block_index t
  have e4' : win4_2.index t (0 : Fin 2) = (i 0).val / 2000 := e4
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 40 ≤ (i 1).val ∧ (i 1).val < win4_2.index t (1 : Fin 2) * 40 + 40; omega

/-- After the region the result array is the product of the two arrays the region found. -/
theorem array_eq (D : DotDims ⟨2, ![50000, 128]⟩ ⟨2, ![128, 40]⟩ ⟨2, ![50000, 40]⟩) (hD : D = DotDims.plain 50000 128 40) (c : Dev nD) :
    (dat4 V c).arrAt 2 cfg4.N
      = Host.dotGeneral (F := Ideal) D none (leftArr V c) (rightArr V c) :=
  (dat4 V c).arrAt_eq_of_cover 2 _ (fun t _ => flushed_eq V D hD c t) (cover)

end Cert.KernelIdeal.GcnRegion4

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.NetworkRead.lean ====
/-
  The network's layer operations read at one entry.
  * bias and clamp:  biasRelu a b (p, q) = max (a (p, q) + b q) 0;
  * the row-wise log-softmax of z at (p, q) depends on row p of z only: with M = max_c z (p, c) (a fold of max from -∞
    over the 40 columns) it is  (z (p, q) − M) − log Σ_c exp (z (p, c) − M)  — `softmaxRow` of the row.
-/
import proofs.«101067_j10136122819080_2_alg».proof.Proof.Network
import proofs.«101067_j10136122819080_2_alg».proof.Proof.LibBroadcastRows
import proofs.«101067_j10136122819080_2_alg».proof.Proof.LibHostBroadcasts
import Idealize.ShloMosaic.PureOps.Ideal.Laws
import Idealize.ShloMosaic.PureOps.Reduce
import Idealize.ShloMosaic.Lib.ValueIdx

noncomputable section

namespace Cert.Gcn

open Idealize.ShloMosaic Idealize.ShloMosaic.ValueIdx Cert.ReferenceIdeal Cert.ReferenceIdeal.Facts₀ Cert.ReferenceIdeal.Facts

/-- The value of -∞'s f32 word (never evaluated: it only starts the folds of max). -/
abbrev negInf : EReal := Ideal.ofBits .f32 0xFF800000#32

/-- The log-softmax of one row of 40 numbers, at column q. -/
def softmaxRow (r : Fin 40 → EReal) (q : Fin 40) : EReal :=
  (r q - Finset.univ.fold max negInf r) - Ideal.log (∑ c : Fin 40, Ideal.exp (r c - Finset.univ.fold max negInf r))

theorem biasRelu_apply (a : FVec Ideal S50000x128 .f32) (b : FVec Ideal S128 .f32) (p : Fin 50000) (q : Fin 128) :
    biasRelu a b (ix2 p q) = max (a (ix2 p q) + b (ix1 q)) (Ideal.ofBits .f32 0x00000000#32) := by
  unfold biasRelu
  show max (a (ix2 p q) + broadcastInDim S50000x128 ![0, 1] bcast_S1x128_S50000x128_0_1 (broadcastInDim S1x128 ![1] bcast_S128_S1x128_1 b) (ix2 p q))
      (broadcastInDim S50000x128 ![] bcast_S_S50000x128 (constant (F := Ideal) S_ .f32 0x00000000#32) (ix2 p q)) = _
  rw [Cert.BroadcastRows.row_apply, Cert.BroadcastRows.unit_apply, Cert.HostBroadcasts.scalar_apply]
  rfl

theorem bias40_apply (a : FVec Ideal S50000x40 .f32) (b : FVec Ideal S40 .f32) (p : Fin 50000) (q : Fin 40) :
    bias40 a b (ix2 p q) = a (ix2 p q) + b (ix1 q) := by
  unfold bias40
  show a (ix2 p q) + broadcastInDim S50000x40 ![0, 1] bcast_S1x40_S50000x40_0_1 (broadcastInDim S1x40 ![1] bcast_S40_S1x40_1 b) (ix2 p q) = _
  rw [Cert.BroadcastRows.row_apply, Cert.BroadcastRows.unit_apply]

/-- The axis-1 reduction's shape fact in the form the single-axis laws take. -/
theorem reduces40 : S50000x40.Reduces [1] S50000 := by decide

/-- Over a row index p, the source index with column c inserted is (p, c). -/
theorem lift_rows {a b : ℕ} (h : (⟨2, ![a, b]⟩ : Shape).Reduces [1] ⟨1, ![a]⟩) (p : Fin a) (c : Fin b) :
    h.lift (ix1 p) c = ix2 p c :=
  funext fun x => Fin.ext (by
    match x with
    | ⟨0, _⟩ => rfl
    | ⟨1, _⟩ => rfl)

theorem rowMax_apply (z : FVec Ideal S50000x40 .f32) (p : Fin 50000) :
    rowMax z (ix1 p) = Finset.univ.fold max negInf (fun c : Fin 40 => z (ix2 p c)) := by
  unfold rowMax
  rw [maximumf_apply, Cert.HostBroadcasts.scalar_apply,
    Host.reduce_eq_fold_single FloatOps.maximumf z _ reducesTo_S50000x40_S50000_d1 reduces40 h_S_ (ix1 p)]
  have hrow : (z ∘ reduces40.lift (ix1 p)) = fun c : Fin 40 => z (ix2 p c) :=
    funext fun c => congrArg z (lift_rows reduces40 p c)
  rw [hrow]
  show max negInf (Finset.univ.fold max negInf (fun c : Fin 40 => z (ix2 p c))) = _
  exact max_eq_right (by rw [Finset.le_fold_max]; exact Or.inl le_rfl)

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The host's sum over the columns, from zero, at row p. -/
theorem rowSum_apply (x : FVec Ideal S50000x40 .f32) (p : Fin 50000) :
    Host.reduceAdd x (constant (F := Ideal) S_ .f32 0x00000000#32) reducesTo_S50000x40_S50000_d1 h_S_ (ix1 p)
      = ∑ c : Fin 40, x (ix2 p c) := by
  unfold Host.reduceAdd
  rw [Ideal.hostReduceAdd_def, Ideal.hostReduceAdd_single reducesTo_S50000x40_S50000_d1 reduces40]
  show Ideal.ofBits .f32 0x00000000#32 + _ = _
  rw [Ideal.ofBits_zero_f32, zero_add]
  exact Finset.sum_congr rfl fun c _ => congrArg x (lift_rows reduces40 p c)

theorem shifted_apply (z : FVec Ideal S50000x40 .f32) (p : Fin 50000) (q : Fin 40) :
    shifted z (ix2 p q) = z (ix2 p q) - Finset.univ.fold max negInf (fun c : Fin 40 => z (ix2 p c)) := by
  unfold shifted alongRows
  rw [subf_apply, Cert.HostBroadcasts.col_rows_apply, Cert.HostBroadcasts.col_apply, rowMax_apply]

theorem logSoftmax_apply (z : FVec Ideal S50000x40 .f32) (p : Fin 50000) (q : Fin 40) :
    logSoftmax z (ix2 p q) = softmaxRow (fun c => z (ix2 p c)) q := by
  unfold logSoftmax softmaxRow
  rw [subf_apply, shifted_apply, Cert.HostBroadcasts.col_rows_apply, hostLog_apply, Cert.HostBroadcasts.col_apply, rowSum_apply]
  refine congrArg (fun s => _ - Ideal.log s) (Finset.sum_congr rfl fun c _ => ?_)
  rw [hostExp_apply, shifted_apply]

end Cert.Gcn

end
-- ==== Proof.RegionBias1.lean ====
/-
  Kernel region 1: the bias and the clamp at zero after the first layer's message passing, tiled over row blocks.
  The grid has 10 points; point t reads rows 5000·t … 5000·t + 4999 of the aggregated features and the whole bias
  vector, and writes the same rows of the result: entry (p, q) of the block is max (agg (p, q) + b q) 0.  That is
  block t of the whole-array bias-and-clamp, and the 10 blocks tile the result.
-/
import proofs.«101067_j10136122819080_2_alg».proof.Proof.Gen.KernelIdeal.Frame
import proofs.«101067_j10136122819080_2_alg».proof.Proof.NetworkRead
import Idealize.ShloMosaic.Lib.Pipeline.Value
import Idealize.ShloMosaic.Lib.ValueIdx
import Idealize.ShloMosaic.Lib.ValueLayout

set_option maxRecDepth 16384

noncomputable section

namespace Cert.KernelIdeal.GcnRegion1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The aggregated features as the region finds them. -/
abbrev aggArr (c : Dev nD) : FVec Ideal S50000x128 .f32 := V c (Pipeline.arrRef spec1 0)
/-- The bias vector as the region finds it. -/
abbrev biasArr (c : Dev nD) : FVec Ideal S128 .f32 := V c (Pipeline.arrRef spec1 1)

theorem hz2 : (![0, 0] : Fin 2 → Nat) = fun _ => 0 := funext fun a => by fin_cases a <;> rfl
theorem hz1 : (![0] : Fin 1 → Nat) = fun _ => 0 := funext fun a => by fin_cases a; rfl

/-- The index maps over the grid: the features' and the result's block row is the point; the bias is one block. -/
theorem block_index : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The body's value at entry (p, q) of a block. -/
theorem body_apply (x0 : FVec Ideal S5000x128 .f32) (x1 : FVec Ideal S128 .f32) (p : Fin 5000) (q : Fin 128) :
    k1_pay1 (F := Ideal) x0 x1 (ix2 p q) = max (x0 (ix2 p q) + x1 (ix1 q)) (Ideal.ofBits .f32 0x00000000#32) := by
  unfold k1_pay1
  show max (shapeCast S5000x128 x0 _ (ix2 p q) + broadcastTo S5000x128 (shapeCast S1x128 x1 _) _ (ix2 p q))
      (Ideal.ofBits .f32 0x00000000#32) = _
  rw [shapeCast_self, broadcastTo_1b_ab_apply, shapeCast_a_1a_apply]

/-- What point t writes back is block t of the whole-array bias-and-clamp. -/
theorem flushed_eq (c : Dev nD) (t : Fin cfg1.N) :
    (dat1 V c).flushed 2 t = ((cfg1.win 2).blk t).view.read (Elt Ideal) (Cert.Gcn.biasRelu (aggArr V c) (biasArr V c)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  obtain ⟨e0, e1, e2, e3, e4⟩ := block_index t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hout : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have hin : ((cfg1.win 0).blk t).view.emb (ix2 p q) = ix2 (⟨t.val * 5000 + p.val, by omega⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have hb : ((cfg1.win 1).blk t).view.emb (ix1 q) = ix1 q := by
    funext a; apply Fin.ext
    match a with
    | ⟨0, _⟩ => show win1_1.index t (0 : Fin 1) * 128 + 1 * q.val = q.val; omega
  show k1_pay1 (F := Ideal) (iblk1 V c 0 t) (iblk1 V c 1 t) (ix2 p q)
    = Cert.Gcn.biasRelu (aggArr V c) (biasArr V c) (((cfg1.win 2).blk t).view.emb (ix2 p q))
  rw [hout, body_apply, Cert.Gcn.biasRelu_apply]
  show max (aggArr V c (((cfg1.win 0).blk t).view.emb (ix2 p q)) + biasArr V c (((cfg1.win 1).blk t).view.emb (ix1 q))) _ = _
  rw [hin, hb]

/-- An index is in point t's block iff its row lies in the block's row range. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- The row blocks tile the result: row r lies in the block of point r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4⟩ := block_index t
  have e3' : win1_2.index t (0 : Fin 2) = (i 0).val / 5000 := e3
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the result array is the bias-and-clamp of the two arrays the region found. -/
theorem array_eq (c : Dev nD) :
    (dat1 V c).arrAt 2 cfg1.N = Cert.Gcn.biasRelu (aggArr V c) (biasArr V c) :=
  (dat1 V c).arrAt_eq_of_cover 2 _ (fun t _ => flushed_eq V c t) (cover)

end Cert.KernelIdeal.GcnRegion1

end
-- ==== Proof.RegionBias3.lean ====
/-
  Kernel region 3: the bias and the clamp at zero after the second layer's message passing, tiled over row blocks.
  The grid has 10 points; point t reads rows 5000·t … 5000·t + 4999 of the aggregated features and the whole bias
  vector, and writes the same rows of the result: entry (p, q) of the block is max (agg (p, q) + b q) 0.  That is
  block t of the whole-array bias-and-clamp, and the 10 blocks tile the result.
-/
import proofs.«101067_j10136122819080_2_alg».proof.Proof.Gen.KernelIdeal.Frame
import proofs.«101067_j10136122819080_2_alg».proof.Proof.NetworkRead
import Idealize.ShloMosaic.Lib.Pipeline.Value
import Idealize.ShloMosaic.Lib.ValueIdx
import Idealize.ShloMosaic.Lib.ValueLayout

set_option maxRecDepth 16384

noncomputable section

namespace Cert.KernelIdeal.GcnRegion3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The aggregated features as the region finds them. -/
abbrev aggArr (c : Dev nD) : FVec Ideal S50000x128 .f32 := V c (Pipeline.arrRef spec3 0)
/-- The bias vector as the region finds it. -/
abbrev biasArr (c : Dev nD) : FVec Ideal S128 .f32 := V c (Pipeline.arrRef spec3 1)

theorem hz2 : (![0, 0] : Fin 2 → Nat) = fun _ => 0 := funext fun a => by fin_cases a <;> rfl
theorem hz1 : (![0] : Fin 1 → Nat) = fun _ => 0 := funext fun a => by fin_cases a; rfl

/-- The index maps over the grid: the features' and the result's block row is the point; the bias is one block. -/
theorem block_index : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The body's value at entry (p, q) of a block. -/
theorem body_apply (x0 : FVec Ideal S5000x128 .f32) (x1 : FVec Ideal S128 .f32) (p : Fin 5000) (q : Fin 128) :
    k3_pay1 (F := Ideal) x0 x1 (ix2 p q) = max (x0 (ix2 p q) + x1 (ix1 q)) (Ideal.ofBits .f32 0x00000000#32) := by
  unfold k3_pay1
  show max (shapeCast S5000x128 x0 _ (ix2 p q) + broadcastTo S5000x128 (shapeCast S1x128 x1 _) _ (ix2 p q))
      (Ideal.ofBits .f32 0x00000000#32) = _
  rw [shapeCast_self, broadcastTo_1b_ab_apply, shapeCast_a_1a_apply]

/-- What point t writes back is block t of the whole-array bias-and-clamp. -/
theorem flushed_eq (c : Dev nD) (t : Fin cfg3.N) :
    (dat3 V c).flushed 2 t = ((cfg3.win 2).blk t).view.read (Elt Ideal) (Cert.Gcn.biasRelu (aggArr V c) (biasArr V c)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1]
  obtain ⟨e0, e1, e2, e3, e4⟩ := block_index t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hout : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  have hin : ((cfg3.win 0).blk t).view.emb (ix2 p q) = ix2 (⟨t.val * 5000 + p.val, by omega⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have hb : ((cfg3.win 1).blk t).view.emb (ix1 q) = ix1 q := by
    funext a; apply Fin.ext
    match a with
    | ⟨0, _⟩ => show win3_1.index t (0 : Fin 1) * 128 + 1 * q.val = q.val; omega
  show k3_pay1 (F := Ideal) (iblk3 V c 0 t) (iblk3 V c 1 t) (ix2 p q)
    = Cert.Gcn.biasRelu (aggArr V c) (biasArr V c) (((cfg3.win 2).blk t).view.emb (ix2 p q))
  rw [hout, body_apply, Cert.Gcn.biasRelu_apply]
  show max (aggArr V c (((cfg3.win 0).blk t).view.emb (ix2 p q)) + biasArr V c (((cfg3.win 1).blk t).view.emb (ix1 q))) _ = _
  rw [hin, hb]

/-- An index is in point t's block iff its row lies in the block's row range. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v59).slice (win3_2.rect t)).set ↔ _
  rw [View.set_slice_whole, Rect.mem_set_unit]
  exact Iff.rfl

/-- The row blocks tile the result: row r lies in the block of point r / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4⟩ := block_index t
  have e3' : win3_2.index t (0 : Fin 2) = (i 0).val / 5000 := e3
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the result array is the bias-and-clamp of the two arrays the region found. -/
theorem array_eq (c : Dev nD) :
    (dat3 V c).arrAt 2 cfg3.N = Cert.Gcn.biasRelu (aggArr V c) (biasArr V c) :=
  (dat3 V c).arrAt_eq_of_cover 2 _ (fun t _ => flushed_eq V c t) (cover)

end Cert.KernelIdeal.GcnRegion3

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.RegionSoftmax5.lean ====
/-
  Kernel region 5: the last layer's bias and the row-wise log-softmax, tiled over row blocks.
  The grid has 10 points; point t reads rows 5000·t … 5000·t + 4999 of the aggregated 40-feature array and the whole
  bias vector, and writes the same rows of the result.  Inside a block, with z (p, c) = agg (p, c) + b c, the body
  takes each row's maximum M p (a fold of max from -∞ over the 40 columns), exponentiates z − M, sums each row, and
  stores (z − M) − log of that sum: entry (p, q) is the log-softmax of row p at column q, a function of that row alone.
  So the block is block t of the whole-array log-softmax of agg + b, and the 10 blocks tile the result.
-/
import proofs.«101067_j10136122819080_2_alg».proof.Proof.Gen.KernelIdeal.Frame
import proofs.«101067_j10136122819080_2_alg».proof.Proof.NetworkRead
import proofs.«101067_j10136122819080_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GcnRegion5

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The aggregated features as the region finds them. -/
abbrev aggArr (c : Dev nD) : FVec Ideal S50000x40 .f32 := V c (Pipeline.arrRef spec5 0)
/-- The bias vector as the region finds it. -/
abbrev biasArr (c : Dev nD) : FVec Ideal S40 .f32 := V c (Pipeline.arrRef spec5 1)

theorem hz2 : (![0, 0] : Fin 2 → Nat) = fun _ => 0 := funext fun a => by fin_cases a <;> rfl
theorem hz1 : (![0] : Fin 1 → Nat) = fun _ => 0 := funext fun a => by fin_cases a; rfl

/-- The index maps over the grid: the features' and the result's block row is the point; the bias is one block. -/
theorem block_index : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-! ## The body, as a function of the biased block -/

/-- Each row's maximum. -/
def blkMax (z : FVec Ideal S5000x40 .f32) : FVec Ideal S5000 .f32 :=
  multiReduction .maximumf [1] S5000 z 0xFF800000#32 Cert.KernelIdeal.Facts₀.reduces_S5000x40_S5000 (.inl rfl) rfl

/-- A per-row number spread along its row. -/
def blkSpread (v : FVec Ideal S5000 .f32) : FVec Ideal S5000x40 .f32 :=
  broadcastTo S5000x40 (shapeCast S5000x1 v Cert.KernelIdeal.Facts₀.shapeCasts_S5000_S5000x1) Cert.KernelIdeal.Facts₀.broadcasts_S5000x1_S5000x40

/-- Each row's sum. -/
def blkSum (z : FVec Ideal S5000x40 .f32) : FVec Ideal S5000 .f32 :=
  multiReduction .add [1] S5000 z 0x00000000#32 Cert.KernelIdeal.Facts₀.reduces_S5000x40_S5000 (.inl rfl) rfl

/-- The log-softmax of every row of a block. -/
def blkSoftmax (z : FVec Ideal S5000x40 .f32) : FVec Ideal S5000x40 .f32 :=
  subf (subf z (blkSpread (blkMax z)))
    (broadcastTo S5000x40 (log (shapeCast S5000x1 (blkSum (exp (subf z (blkSpread (blkMax z))))) Cert.KernelIdeal.Facts₀.shapeCasts_S5000_S5000x1))
      Cert.KernelIdeal.Facts₀.broadcasts_S5000x1_S5000x40)

/-- The bias added to every row of a block. -/
def blkBias (x0 : FVec Ideal S5000x40 .f32) (x1 : FVec Ideal S40 .f32) : FVec Ideal S5000x40 .f32 :=
  addf (shapeCast S5000x40 x0 Cert.KernelIdeal.Facts₀.shapeCasts_S5000x40_S5000x40)
    (broadcastTo S5000x40 (shapeCast S1x40 x1 Cert.KernelIdeal.Facts₀.shapeCasts_S40_S1x40) Cert.KernelIdeal.Facts₀.broadcasts_S1x40_S5000x40)

/-- The body is the log-softmax of the biased block. -/
theorem pay_eq (x0 : FVec Ideal S5000x40 .f32) (x1 : FVec Ideal S40 .f32) :
    k5_pay1 (F := Ideal) x0 x1 = blkSoftmax (blkBias x0 x1) := rfl

theorem blkBias_apply (x0 : FVec Ideal S5000x40 .f32) (x1 : FVec Ideal S40 .f32) (p : Fin 5000) (c : Fin 40) :
    blkBias x0 x1 (ix2 p c) = x0 (ix2 p c) + x1 (ix1 c) := by
  unfold blkBias
  rw [addf_apply, shapeCast_self, broadcastTo_1b_ab_apply, shapeCast_a_1a_apply]

theorem blkMax_apply (z : FVec Ideal S5000x40 .f32) (p : Fin 5000) :
    blkMax z (ix1 p) = Finset.univ.fold max Cert.Gcn.negInf (fun c : Fin 40 => z (ix2 p c)) := by
  refine (Ideal.multiReduction_maximumf_single z 0xFF800000#32 Cert.KernelIdeal.Facts₀.reduces_S5000x40_S5000 (.inl rfl) rfl (ix1 p)).trans ?_
  have hrow : (z ∘ Cert.KernelIdeal.Facts₀.reduces_S5000x40_S5000.lift (ix1 p)) = fun c : Fin 40 => z (ix2 p c) :=
    funext fun c => congrArg z (Cert.Gcn.lift_rows Cert.KernelIdeal.Facts₀.reduces_S5000x40_S5000 p c)
  rw [hrow]
  rfl

theorem blkSum_apply (z : FVec Ideal S5000x40 .f32) (p : Fin 5000) :
    blkSum z (ix1 p) = ∑ c : Fin 40, z (ix2 p c) :=
  (Ideal.multiReduction_add_single z 0x00000000#32 Cert.KernelIdeal.Facts₀.reduces_S5000x40_S5000 (.inl rfl) rfl (ix1 p)).trans
    (Finset.sum_congr rfl fun c _ => congrArg z (Cert.Gcn.lift_rows Cert.KernelIdeal.Facts₀.reduces_S5000x40_S5000 p c))

theorem log_apply {s : Shape} (x : FVec Ideal s .f32) (i : s.Idx) : log x i = Ideal.log (x i) := rfl
theorem exp_apply {s : Shape} (x : FVec Ideal s .f32) (i : s.Idx) : exp x i = Ideal.exp (x i) := rfl

theorem blkSpread_apply (v : FVec Ideal S5000 .f32) (p : Fin 5000) (q : Fin 40) : blkSpread v (ix2 p q) = v (ix1 p) := by
  unfold blkSpread
  rw [Cert.KeepdimsColumn.broadcastTo_a1_ab_apply, Cert.KeepdimsColumn.shapeCast_a_a1_apply]

/-- Entry (p, q) of the block's log-softmax is the log-softmax of row p at column q. -/
theorem blkSoftmax_apply (z : FVec Ideal S5000x40 .f32) (p : Fin 5000) (q : Fin 40) :
    blkSoftmax z (ix2 p q) = Cert.Gcn.softmaxRow (fun c => z (ix2 p c)) q := by
  have hsh : ∀ c : Fin 40, subf z (blkSpread (blkMax z)) (ix2 p c)
      = z (ix2 p c) - Finset.univ.fold max Cert.Gcn.negInf (fun c : Fin 40 => z (ix2 p c)) := by
    intro c; rw [subf_apply, blkSpread_apply, blkMax_apply]
  unfold blkSoftmax Cert.Gcn.softmaxRow
  rw [subf_apply, hsh, Cert.KeepdimsColumn.broadcastTo_a1_ab_apply, log_apply, Cert.KeepdimsColumn.shapeCast_a_a1_apply, blkSum_apply]
  refine congrArg (fun s => _ - Ideal.log s) (Finset.sum_congr rfl fun c _ => ?_)
  rw [exp_apply, hsh]

/-- The body's value at entry (p, q) of a block. -/
theorem body_apply (x0 : FVec Ideal S5000x40 .f32) (x1 : FVec Ideal S40 .f32) (p : Fin 5000) (q : Fin 40) :
    k5_pay1 (F := Ideal) x0 x1 (ix2 p q) = Cert.Gcn.softmaxRow (fun c => x0 (ix2 p c) + x1 (ix1 c)) q := by
  rw [pay_eq, blkSoftmax_apply]
  exact congrArg (fun r => Cert.Gcn.softmaxRow r q) (funext fun c => blkBias_apply x0 x1 p c)

/-! ## From blocks to the array -/

/-- What point t writes back is block t of the whole-array log-softmax of the biased features. -/
theorem flushed_eq (c : Dev nD) (t : Fin cfg5.N) :
    (dat5 V c).flushed 2 t = ((cfg5.win 2).blk t).view.read (Elt Ideal)
      (Cert.Gcn.logSoftmax (Cert.Gcn.bias40 (aggArr V c) (biasArr V c))) := by
  show (cfg5.win 2).cut (grid5.coords t) ((dat5 V c).after 2 t) = _
  rw [after5_2]
  unfold out5_2
  rw [View.canon_unit_zero hz2]
  simp only [View.ld_unit_zero (S := S5000x40) hz2, View.ld_unit_zero (S := S40) hz1]
  obtain ⟨e0, e1, e2, e3, e4⟩ := block_index t
  have ht : t.val < 10 := t.isLt
  funext j
  obtain ⟨p, q, rfl⟩ : ∃ (p : Fin 5000) (q : Fin 40), j = ix2 p q := ⟨j 0, j 1, eq_ix2 j⟩
  have hp : p.val < 5000 := p.isLt
  have hout : ((cfg5.win 2).blk t).view.emb (ix2 p q) = ix2 (⟨t.val * 5000 + p.val, by omega⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 40 + 1 * q.val = q.val; omega
  have hin : ∀ c' : Fin 40, ((cfg5.win 0).blk t).view.emb (ix2 p c') = ix2 (⟨t.val * 5000 + p.val, by omega⟩ : Fin 50000) c' := by
    intro c'; funext a; apply Fin.ext
    match a with
    | ⟨0, _⟩ => show win5_0.index t (0 : Fin 2) * 5000 + 1 * p.val = t.val * 5000 + p.val; omega
    | ⟨1, _⟩ => show win5_0.index t (1 : Fin 2) * 40 + 1 * c'.val = c'.val; omega
  have hb : ∀ c' : Fin 40, ((cfg5.win 1).blk t).view.emb (ix1 c') = ix1 c' := by
    intro c'; funext a; apply Fin.ext
    match a with
    | ⟨0, _⟩ => show win5_1.index t (0 : Fin 1) * 40 + 1 * c'.val = c'.val; omega
  show k5_pay1 (F := Ideal) (iblk5 V c 0 t) (iblk5 V c 1 t) (ix2 p q)
    = Cert.Gcn.logSoftmax (Cert.Gcn.bias40 (aggArr V c) (biasArr V c)) (((cfg5.win 2).blk t).view.emb (ix2 p q))
  rw [hout, body_apply, Cert.Gcn.logSoftmax_apply]
  refine congrArg (fun r => Cert.Gcn.softmaxRow r q) (funext fun c' => ?_)
  rw [Cert.Gcn.bias40_apply]
  show aggArr V c (((cfg5.win 0).blk t).view.emb (ix2 p c')) + biasArr V c (((cfg5.win 1).blk t).view.emb (ix1 c')) = _
  rw [hin, hb]

/-- An index is in point t's block iff its row lies in the block's row range. -/
theorem mem_blk (t : Fin cfg5.N) (i : S50000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v74).slice (win5_2.rect t)).set ↔ _
  rw [View.set_slice_whole, Rect.mem_set_unit]
  exact Iff.rfl

/-- The row blocks tile the result: row r lies in the block of point r / 5000. -/
theorem cover (i : S50000x40.Idx) :
    ∃ t : Fin cfg5.N, (cfg5.win 2).flush t = true ∧ i ∈ ((cfg5.win 2).blk t).view.set := by
  have hi0 : (i 0).val < 50000 := (i 0).isLt
  have hi1 : (i 1).val < 40 := (i 1).isLt
  have hN : cfg5.N = 10 := N_5
  let t : Fin cfg5.N := ⟨(i 0).val / 5000, by rw [hN]; omega⟩
  obtain ⟨e0, e1, e2, e3, e4⟩ := block_index t
  have e3' : win5_2.index t (0 : Fin 2) = (i 0).val / 5000 := e3
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 40 ≤ (i 1).val ∧ (i 1).val < win5_2.index t (1 : Fin 2) * 40 + 40; omega

/-- After the region the result array is the log-softmax of the biased features the region found. -/
theorem array_eq (c : Dev nD) :
    (dat5 V c).arrAt 2 cfg5.N = Cert.Gcn.logSoftmax (Cert.Gcn.bias40 (aggArr V c) (biasArr V c)) :=
  (dat5 V c).arrAt_eq_of_cover 2 _ (fun t _ => flushed_eq V c t) (cover)

end Cert.KernelIdeal.GcnRegion5

end
-- ==== Proof.KernelValue.lean ====
/-
  The kernel program's result as a function of its arguments.  The buffer contents at each boundary between host
  stretches and regions are known (the generated frame's `W0` … `W12`); going through them in order — the edge
  lists and weights, then for each layer the product region, the message-passing stretch and the bias region — the
  result buffer ends holding the three-layer network `Cert.Gcn.net` of the launch contents of the eight arguments.
-/
import proofs.«101067_j10136122819080_2_alg».proof.Proof.KernelHost
import proofs.«101067_j10136122819080_2_alg».proof.Proof.RegionProduct0
import proofs.«101067_j10136122819080_2_alg».proof.Proof.RegionProduct2
import proofs.«101067_j10136122819080_2_alg».proof.Proof.RegionProduct4
import proofs.«101067_j10136122819080_2_alg».proof.Proof.RegionBias1
import proofs.«101067_j10136122819080_2_alg».proof.Proof.RegionBias3
import proofs.«101067_j10136122819080_2_alg».proof.Proof.RegionSoftmax5

set_option maxRecDepth 16384

noncomputable section

namespace Cert.KernelIdeal.GcnValue

open Idealize.ShloMosaic Idealize.ShloMosaic.TcCoe Idealize.SL.Sem Idealize.ShloMosaic.StableHlo
open Cert.KernelIdeal Cert.KernelIdeal.Gen Cert.KernelIdeal.GcnHost

variable (m : (ℓ : Loc nD τ sig) → Buf (Elt Ideal) ℓ) (ρ : Dev nD → PrngReg) (c : Dev nD)

/-- The launch contents of the arguments. -/
abbrev x0 : FVec Ideal S50000x256 .f32 := m ((c.tc : Thread nD τ).loc main_arg0)
abbrev ed : IVec S2x800000 32 := m ((c.tc : Thread nD τ).loc main_arg1)
abbrev w1 : FVec Ideal S256x128 .f32 := m ((c.tc : Thread nD τ).loc main_arg2)
abbrev b1 : FVec Ideal S128 .f32 := m ((c.tc : Thread nD τ).loc main_arg3)
abbrev w2 : FVec Ideal S128x128 .f32 := m ((c.tc : Thread nD τ).loc main_arg4)
abbrev b2 : FVec Ideal S128 .f32 := m ((c.tc : Thread nD τ).loc main_arg5)
abbrev w3 : FVec Ideal S128x40 .f32 := m ((c.tc : Thread nD τ).loc main_arg6)
abbrev b3 : FVec Ideal S40 .f32 := m ((c.tc : Thread nD τ).loc main_arg7)

/-! ## The edge lists and weights (before the first region) -/

theorem W1_v3 : W1 m ρ c (Proc.devRef .tc main_v3) = Cert.Gcn.srcIdx (ed m c) := edges_src (W0 m ρ c) _ rfl
theorem W1_v6 : W1 m ρ c (Proc.devRef .tc main_v6) = Cert.Gcn.dstIdx (ed m c) := edges_dst (W0 m ρ c) _ rfl

theorem W2_v14 : W2 m ρ c (Proc.devRef .tc main_v14) = Cert.Gcn.dinv (ed m c) :=
  dinv_eq (W1 m ρ c) _ (deg_pos (W0 m ρ c) _ rfl) (deg_rsqrt (W0 m ρ c) _ rfl) (zero_cst (W0 m ρ c))
theorem W2_v3 : W2 m ρ c (Proc.devRef .tc main_v3) = Cert.Gcn.srcIdx (ed m c) := (keep_0_1 (W1 m ρ c)).1.trans (W1_v3 m ρ c)
theorem W2_v6 : W2 m ρ c (Proc.devRef .tc main_v6) = Cert.Gcn.dstIdx (ed m c) := (keep_0_1 (W1 m ρ c)).2.1.trans (W1_v6 m ρ c)

theorem W3_v29 : W3 m ρ c (Proc.devRef .tc main_v29) = Cert.Gcn.norm (ed m c) :=
  norm_eq (W2 m ρ c) _ (W2_v14 m ρ c) (W2_v3 m ρ c) (W2_v6 m ρ c)
theorem W3_v3 : W3 m ρ c (Proc.devRef .tc main_v3) = Cert.Gcn.srcIdx (ed m c) := (keep_0_2 (W2 m ρ c)).1.trans (W2_v3 m ρ c)
theorem W3_v6 : W3 m ρ c (Proc.devRef .tc main_v6) = Cert.Gcn.dstIdx (ed m c) := (keep_0_2 (W2 m ρ c)).2.1.trans (W2_v6 m ρ c)

/-- The arguments are as launched when the first region is entered. -/
theorem W3_args :
    W3 m ρ c (Proc.devRef .tc main_arg0) = x0 m c ∧ W3 m ρ c (Proc.devRef .tc main_arg2) = w1 m c
    ∧ W3 m ρ c (Proc.devRef .tc main_arg3) = b1 m c ∧ W3 m ρ c (Proc.devRef .tc main_arg4) = w2 m c
    ∧ W3 m ρ c (Proc.devRef .tc main_arg5) = b2 m c ∧ W3 m ρ c (Proc.devRef .tc main_arg6) = w3 m c
    ∧ W3 m ρ c (Proc.devRef .tc main_arg7) = b3 m c := by
  obtain ⟨_, _, a0, a2, a3, a4, a5, a6, a7⟩ := keep_0_2 (W2 m ρ c)
  obtain ⟨_, _, p0, p2, p3, p4, p5, p6, p7⟩ := keep_0_1 (W1 m ρ c)
  obtain ⟨q0, q2, q3, q4, q5, q6, q7⟩ := keep_0 (W0 m ρ c)
  exact ⟨a0.trans (p0.trans q0), a2.trans (p2.trans q2), a3.trans (p3.trans q3), a4.trans (p4.trans q4),
    a5.trans (p5.trans q5), a6.trans (p6.trans q6), a7.trans (p7.trans q7)⟩

/-! ## Layer 1 -/

theorem W4_v30 : W4 m ρ c (Proc.devRef .tc main_v30) = Cert.Gcn.dense1 (x0 m c) (w1 m c) := by
  refine (W4_arr m ρ c 2).trans ?_
  rw [Cert.KernelIdeal.GcnRegion0.array_eq (V3 m ρ) Cert.ReferenceIdeal.dot_S50000x256_S256x128_S50000x128_1_0_0_1_n_n rfl c]
  exact congrArg₂ (Host.dotGeneral _ none) (W3_args m ρ c).1 (W3_args m ρ c).2.1

theorem W4_v3 : W4 m ρ c (Proc.devRef .tc main_v3) = Cert.Gcn.srcIdx (ed m c) := (W4_of_ne m ρ c main_v3 (by decide)).trans (W3_v3 m ρ c)
theorem W4_v6 : W4 m ρ c (Proc.devRef .tc main_v6) = Cert.Gcn.dstIdx (ed m c) := (W4_of_ne m ρ c main_v6 (by decide)).trans (W3_v6 m ρ c)
theorem W4_v29 : W4 m ρ c (Proc.devRef .tc main_v29) = Cert.Gcn.norm (ed m c) := (W4_of_ne m ρ c main_v29 (by decide)).trans (W3_v29 m ρ c)

theorem W5_v43 : W5 m ρ c (Proc.devRef .tc main_v43) = Cert.Gcn.hop128 (ed m c) (Cert.Gcn.dense1 (x0 m c) (w1 m c)) :=
  hop1 (W4 m ρ c) _ _ (W4_v3 m ρ c) (W4_v6 m ρ c) (W4_v29 m ρ c) (W4_v30 m ρ c)

theorem W5_arg3 : W5 m ρ c (Proc.devRef .tc main_arg3) = b1 m c :=
  (keep_1 (W4 m ρ c)).2.2.2.1.trans ((W4_of_ne m ρ c main_arg3 (by decide)).trans (W3_args m ρ c).2.2.1)

/-- The first layer's output. -/
abbrev h1 : FVec Ideal S50000x128 .f32 := Cert.Gcn.biasRelu (Cert.Gcn.hop128 (ed m c) (Cert.Gcn.dense1 (x0 m c) (w1 m c))) (b1 m c)

theorem W6_v44 : W6 m ρ c (Proc.devRef .tc main_v44) = h1 m c := by
  refine (W6_arr m ρ c 2).trans ?_
  rw [Cert.KernelIdeal.GcnRegion1.array_eq (V5 m ρ) c]
  exact congrArg₂ Cert.Gcn.biasRelu (W5_v43 m ρ c) (W5_arg3 m ρ c)

/-! ## Layer 2 -/

theorem W6_arg4 : W6 m ρ c (Proc.devRef .tc main_arg4) = w2 m c :=
  (W6_of_ne m ρ c main_arg4 (by decide)).trans ((keep_1 (W4 m ρ c)).2.2.2.2.1.trans ((W4_of_ne m ρ c main_arg4 (by decide)).trans (W3_args m ρ c).2.2.2.1))

theorem W7_v45 : W7 m ρ c (Proc.devRef .tc main_v45) = Cert.Gcn.dense2 (h1 m c) (w2 m c) := by
  refine (W7_arr m ρ c 2).trans ?_
  rw [Cert.KernelIdeal.GcnRegion2.array_eq (V6 m ρ) Cert.ReferenceIdeal.dot_S50000x128_S128x128_S50000x128_1_0_0_1_n_n rfl c]
  exact congrArg₂ (Host.dotGeneral _ none) (W6_v44 m ρ c) (W6_arg4 m ρ c)

theorem W7_v3 : W7 m ρ c (Proc.devRef .tc main_v3) = Cert.Gcn.srcIdx (ed m c) :=
  (W7_of_ne m ρ c main_v3 (by decide)).trans ((W6_of_ne m ρ c main_v3 (by decide)).trans ((keep_1 (W4 m ρ c)).1.trans (W4_v3 m ρ c)))
theorem W7_v6 : W7 m ρ c (Proc.devRef .tc main_v6) = Cert.Gcn.dstIdx (ed m c) :=
  (W7_of_ne m ρ c main_v6 (by decide)).trans ((W6_of_ne m ρ c main_v6 (by decide)).trans ((keep_1 (W4 m ρ c)).2.1.trans (W4_v6 m ρ c)))
theorem W7_v29 : W7 m ρ c (Proc.devRef .tc main_v29) = Cert.Gcn.norm (ed m c) :=
  (W7_of_ne m ρ c main_v29 (by decide)).trans ((W6_of_ne m ρ c main_v29 (by decide)).trans ((keep_1 (W4 m ρ c)).2.2.1.trans (W4_v29 m ρ c)))

/-- An argument not yet used, carried from the first region's entry to the second product region's exit. -/
theorem W7_arg (b : Ref sig .tc) (h0 : ∀ w, Pipeline.arrRef spec0 w ≠ b) (h1' : ∀ w, Pipeline.arrRef spec1 w ≠ b)
    (h2 : ∀ w, Pipeline.arrRef spec2 w ≠ b)
    (hk : after hostOps1 (W4 m ρ c) (Proc.devRef .tc b) = W4 m ρ c (Proc.devRef .tc b)) :
    W7 m ρ c (Proc.devRef .tc b) = W3 m ρ c (Proc.devRef .tc b) :=
  (W7_of_ne m ρ c b h2).trans ((W6_of_ne m ρ c b h1').trans (hk.trans (W4_of_ne m ρ c b h0)))

theorem W8_v58 : W8 m ρ c (Proc.devRef .tc main_v58) = Cert.Gcn.hop128 (ed m c) (Cert.Gcn.dense2 (h1 m c) (w2 m c)) :=
  hop3 (W7 m ρ c) _ _ (W7_v3 m ρ c) (W7_v6 m ρ c) (W7_v29 m ρ c) (W7_v45 m ρ c)

theorem W8_arg5 : W8 m ρ c (Proc.devRef .tc main_arg5) = b2 m c :=
  (keep_3 (W7 m ρ c)).2.2.2.1.trans ((W7_arg m ρ c main_arg5 (by decide) (by decide) (by decide) (keep_1 (W4 m ρ c)).2.2.2.2.2.1).trans (W3_args m ρ c).2.2.2.2.1)

/-- The second layer's output. -/
abbrev h2 : FVec Ideal S50000x128 .f32 := Cert.Gcn.biasRelu (Cert.Gcn.hop128 (ed m c) (Cert.Gcn.dense2 (h1 m c) (w2 m c))) (b2 m c)

theorem W9_v59 : W9 m ρ c (Proc.devRef .tc main_v59) = h2 m c := by
  refine (W9_arr m ρ c 2).trans ?_
  rw [Cert.KernelIdeal.GcnRegion3.array_eq (V8 m ρ) c]
  exact congrArg₂ Cert.Gcn.biasRelu (W8_v58 m ρ c) (W8_arg5 m ρ c)

/-! ## Layer 3 -/

theorem W9_arg6 : W9 m ρ c (Proc.devRef .tc main_arg6) = w3 m c :=
  (W9_of_ne m ρ c main_arg6 (by decide)).trans ((keep_3 (W7 m ρ c)).2.2.2.2.1.trans
    ((W7_arg m ρ c main_arg6 (by decide) (by decide) (by decide) (keep_1 (W4 m ρ c)).2.2.2.2.2.2.1).trans (W3_args m ρ c).2.2.2.2.2.1))

theorem W10_v60 : W10 m ρ c (Proc.devRef .tc main_v60) = Cert.Gcn.dense3 (h2 m c) (w3 m c) := by
  refine (W10_arr m ρ c 2).trans ?_
  rw [Cert.KernelIdeal.GcnRegion4.array_eq (V9 m ρ) Cert.ReferenceIdeal.dot_S50000x128_S128x40_S50000x40_1_0_0_1_n_n rfl c]
  exact congrArg₂ (Host.dotGeneral _ none) (W9_v59 m ρ c) (W9_arg6 m ρ c)

theorem W10_v3 : W10 m ρ c (Proc.devRef .tc main_v3) = Cert.Gcn.srcIdx (ed m c) :=
  (W10_of_ne m ρ c main_v3 (by decide)).trans ((W9_of_ne m ρ c main_v3 (by decide)).trans ((keep_3 (W7 m ρ c)).1.trans (W7_v3 m ρ c)))
theorem W10_v6 : W10 m ρ c (Proc.devRef .tc main_v6) = Cert.Gcn.dstIdx (ed m c) :=
  (W10_of_ne m ρ c main_v6 (by decide)).trans ((W9_of_ne m ρ c main_v6 (by decide)).trans ((keep_3 (W7 m ρ c)).2.1.trans (W7_v6 m ρ c)))
theorem W10_v29 : W10 m ρ c (Proc.devRef .tc main_v29) = Cert.Gcn.norm (ed m c) :=
  (W10_of_ne m ρ c main_v29 (by decide)).trans ((W9_of_ne m ρ c main_v29 (by decide)).trans ((keep_3 (W7 m ρ c)).2.2.1.trans (W7_v29 m ρ c)))

theorem W11_v73 : W11 m ρ c (Proc.devRef .tc main_v73) = Cert.Gcn.hop40 (ed m c) (Cert.Gcn.dense3 (h2 m c) (w3 m c)) :=
  hop5 (W10 m ρ c) _ _ (W10_v3 m ρ c) (W10_v6 m ρ c) (W10_v29 m ρ c) (W10_v60 m ρ c)

theorem W11_arg7 : W11 m ρ c (Proc.devRef .tc main_arg7) = b3 m c :=
  (keep_5 (W10 m ρ c)).trans ((W10_of_ne m ρ c main_arg7 (by decide)).trans ((W9_of_ne m ρ c main_arg7 (by decide)).trans
    ((keep_3 (W7 m ρ c)).2.2.2.2.2.trans
      ((W7_arg m ρ c main_arg7 (by decide) (by decide) (by decide) (keep_1 (W4 m ρ c)).2.2.2.2.2.2.2).trans (W3_args m ρ c).2.2.2.2.2.2))))

/-- The result buffer at the last boundary holds the network of the launch contents. -/
theorem result_eq : W12 m ρ c (Proc.devRef .tc main_v74)
    = Cert.Gcn.net (x0 m c) (ed m c) (w1 m c) (b1 m c) (w2 m c) (b2 m c) (w3 m c) (b3 m c) := by
  refine (W12_arr m ρ c 2).trans ?_
  rw [Cert.KernelIdeal.GcnRegion5.array_eq (V11 m ρ) c]
  exact congrArg₂ (fun a b => Cert.Gcn.logSoftmax (Cert.Gcn.bias40 a b)) (W11_v73 m ρ c) (W11_arg7 m ρ c)

end Cert.KernelIdeal.GcnValue

end
-- ==== Proof.ReferenceStages.lean ====
/-
  The reference program's 187 host operations, cut into sixteen consecutive pieces and each piece read as a function
  of the buffer contents it starts from: the edge lists; then per layer the feature map with the degrees, the
  selection that makes dinv, the edge weights, the message-passing step with the bias, and the clamp at zero (after
  the third layer the row-wise log-softmax instead).  Each statement is over an arbitrary valuation S with hypotheses
  naming the few buffers the piece reads, and says which buffers a piece leaves alone.
-/
import proofs.«101067_j10136122819080_2_alg».proof.Proof.RefRun
import proofs.«101067_j10136122819080_2_alg».proof.Proof.Network
import Idealize.ShloMosaic.Lib.StableHlo.Run

set_option maxRecDepth 16384
set_option maxHeartbeats 2000000

noncomputable section

namespace Cert.ReferenceIdeal.GcnStages

open Idealize.ShloMosaic Idealize.ShloMosaic.TcCoe Idealize.SL.Sem Idealize.ShloMosaic.StableHlo
open Cert.ReferenceIdeal Cert.ReferenceIdeal.ValueP Cert.ReferenceIdeal.Facts₀ Cert.ReferenceIdeal.Facts

/-! ## The pieces -/

abbrev L0 : List (HloOp τ sig (Elt Ideal)) := ops (F := Ideal)
abbrev sA : List (HloOp τ sig (Elt Ideal)) := L0.take 7
abbrev L1 : List (HloOp τ sig (Elt Ideal)) := L0.drop 7
abbrev sB1 : List (HloOp τ sig (Elt Ideal)) := L1.take 12
abbrev L2 : List (HloOp τ sig (Elt Ideal)) := L1.drop 12
abbrev sB2 : List (HloOp τ sig (Elt Ideal)) := L2.take 3
abbrev L3 : List (HloOp τ sig (Elt Ideal)) := L2.drop 3
abbrev sB3 : List (HloOp τ sig (Elt Ideal)) := L3.take 19
abbrev L4 : List (HloOp τ sig (Elt Ideal)) := L3.drop 19
abbrev sC1 : List (HloOp τ sig (Elt Ideal)) := L4.take 19
abbrev L5 : List (HloOp τ sig (Elt Ideal)) := L4.drop 19
abbrev sC2 : List (HloOp τ sig (Elt Ideal)) := L5.take 3
abbrev L6 : List (HloOp τ sig (Elt Ideal)) := L5.drop 3
abbrev sD1 : List (HloOp τ sig (Elt Ideal)) := L6.take 12
abbrev L7 : List (HloOp τ sig (Elt Ideal)) := L6.drop 12
abbrev sD2 : List (HloOp τ sig (Elt Ideal)) := L7.take 3
abbrev L8 : List (HloOp τ sig (Elt Ideal)) := L7.drop 3
abbrev sD3 : List (HloOp τ sig (Elt Ideal)) := L8.take 19
abbrev L9 : List (HloOp τ sig (Elt Ideal)) := L8.drop 19
abbrev sE1 : List (HloOp τ sig (Elt Ideal)) := L9.take 19
abbrev L10 : List (HloOp τ sig (Elt Ideal)) := L9.drop 19
abbrev sE2 : List (HloOp τ sig (Elt Ideal)) := L10.take 3
abbrev L11 : List (HloOp τ sig (Elt Ideal)) := L10.drop 3
abbrev sF1 : List (HloOp τ sig (Elt Ideal)) := L11.take 12
abbrev L12 : List (HloOp τ sig (Elt Ideal)) := L11.drop 12
abbrev sF2 : List (HloOp τ sig (Elt Ideal)) := L12.take 3
abbrev L13 : List (HloOp τ sig (Elt Ideal)) := L12.drop 3
abbrev sF3 : List (HloOp τ sig (Elt Ideal)) := L13.take 19
abbrev L14 : List (HloOp τ sig (Elt Ideal)) := L13.drop 19
abbrev sG1 : List (HloOp τ sig (Elt Ideal)) := L14.take 19
abbrev L15 : List (HloOp τ sig (Elt Ideal)) := L14.drop 19
abbrev sG2 : List (HloOp τ sig (Elt Ideal)) := L15

/-- Spell a piece as the literal list of its operations. -/
macro "seg_lit" : tactic => `(tactic| simp only [sA, sB1, sB2, sB3, sC1, sC2, sD1, sD2, sD3, sE1, sE2, sF1, sF2, sF3, sG1, sG2, L0, L1, L2, L3, L4, L5, L6, L7, L8, L9, L10, L11, L12, L13, L14, L15, ops, List.take_succ_cons, List.drop_succ_cons, List.take_zero, List.drop_zero])

variable (S : Valuation τ sig (Elt Ideal)) (e : IVec S2x800000 32)

/-! ## The edge lists -/

theorem sA_src (h1 : (S (Proc.devRef .tc main_arg1) : IVec S2x800000 32) = e) : after sA S (Proc.devRef .tc main_v3) = Cert.Gcn.srcIdx e := by
  subst h1; seg_lit; after_results_simp; rfl
theorem sA_dst (h1 : (S (Proc.devRef .tc main_arg1) : IVec S2x800000 32) = e) : after sA S (Proc.devRef .tc main_v6) = Cert.Gcn.dstIdx e := by
  subst h1; seg_lit; after_results_simp; rfl
theorem keep_sA :
    after sA S (Proc.devRef .tc main_arg0) = S (Proc.devRef .tc main_arg0)
    ∧ after sA S (Proc.devRef .tc main_arg2) = S (Proc.devRef .tc main_arg2)
    ∧ after sA S (Proc.devRef .tc main_arg3) = S (Proc.devRef .tc main_arg3)
    ∧ after sA S (Proc.devRef .tc main_arg4) = S (Proc.devRef .tc main_arg4)
    ∧ after sA S (Proc.devRef .tc main_arg5) = S (Proc.devRef .tc main_arg5)
    ∧ after sA S (Proc.devRef .tc main_arg6) = S (Proc.devRef .tc main_arg6)
    ∧ after sA S (Proc.devRef .tc main_arg7) = S (Proc.devRef .tc main_arg7) := by
  refine ⟨?_, ?_, ?_, ?_, ?_, ?_, ?_⟩ <;> (seg_lit; after_results_simp)

/-! ## Layer 1 -/

/-- Layer 1: the feature map, and the degrees compared with zero and under the inverse square root. -/
theorem sB1_dense (x : FVec Ideal S50000x256 .f32) (w : FVec Ideal S256x128 .f32) (hx : (S (Proc.devRef .tc main_arg0) : FVec Ideal S50000x256 .f32) = x) (hw : (S (Proc.devRef .tc main_arg2) : FVec Ideal S256x128 .f32) = w) :
    after sB1 S (Proc.devRef .tc main_v7) = Cert.Gcn.dense1 x w := by
  subst hx hw; seg_lit; after_results_simp; rfl
theorem sB1_pos (h6 : (S (Proc.devRef .tc main_v6) : IVec S850000 32) = Cert.Gcn.dstIdx e) :
    after sB1 S (Proc.devRef .tc main_v13) = cmpf .ogt (Cert.Gcn.deg e) (broadcastInDim S50000 ![] bcast_S_S50000 (constant (F := Ideal) S_ .f32 0x00000000#32)) := by
  seg_lit; after_results_simp; rw [h6]; rfl
theorem sB1_rsqrt (h6 : (S (Proc.devRef .tc main_v6) : IVec S850000 32) = Cert.Gcn.dstIdx e) :
    after sB1 S (Proc.devRef .tc main_v14) = Host.rsqrt (Cert.Gcn.deg e) := by
  seg_lit; after_results_simp; rw [h6]; rfl
theorem sB1_zero : after sB1 S (Proc.devRef .tc main_cst_2) = constant (F := Ideal) S_ .f32 0x00000000#32 := by
  seg_lit; after_results_simp
theorem keep_sB1 :
    after sB1 S (Proc.devRef .tc main_v3) = S (Proc.devRef .tc main_v3)
    ∧ after sB1 S (Proc.devRef .tc main_v6) = S (Proc.devRef .tc main_v6)
    ∧ after sB1 S (Proc.devRef .tc main_arg3) = S (Proc.devRef .tc main_arg3)
    ∧ after sB1 S (Proc.devRef .tc main_arg4) = S (Proc.devRef .tc main_arg4)
    ∧ after sB1 S (Proc.devRef .tc main_arg5) = S (Proc.devRef .tc main_arg5)
    ∧ after sB1 S (Proc.devRef .tc main_arg6) = S (Proc.devRef .tc main_arg6)
    ∧ after sB1 S (Proc.devRef .tc main_arg7) = S (Proc.devRef .tc main_arg7) := by
  refine ⟨?_, ?_, ?_, ?_, ?_, ?_, ?_⟩ <;> (seg_lit; after_results_simp)

/-- Layer 1: the selection that makes dinv, for any condition, array and scalar. -/
theorem sB2_where (cm : IVec S50000 1) (rs : FVec Ideal S50000 .f32) (c0 : FVec Ideal S_ .f32)
    (h12 : (S (Proc.devRef .tc main_v13) : IVec S50000 1) = cm) (h13 : (S (Proc.devRef .tc main_v14) : FVec Ideal S50000 .f32) = rs) (hc : (S (Proc.devRef .tc main_cst_2) : FVec Ideal S_ .f32) = c0) :
    after sB2 S (Proc.devRef .tc main_v15)
      = select cm rs (broadcastInDim S50000 ![] bcast_S_S50000 (id c0)) := by
  subst h12 h13 hc; seg_lit; after_results; rfl
theorem keep_sB2 :
    after sB2 S (Proc.devRef .tc main_v3) = S (Proc.devRef .tc main_v3)
    ∧ after sB2 S (Proc.devRef .tc main_v6) = S (Proc.devRef .tc main_v6)
    ∧ after sB2 S (Proc.devRef .tc main_v7) = S (Proc.devRef .tc main_v7)
    ∧ after sB2 S (Proc.devRef .tc main_arg3) = S (Proc.devRef .tc main_arg3)
    ∧ after sB2 S (Proc.devRef .tc main_arg4) = S (Proc.devRef .tc main_arg4)
    ∧ after sB2 S (Proc.devRef .tc main_arg5) = S (Proc.devRef .tc main_arg5)
    ∧ after sB2 S (Proc.devRef .tc main_arg6) = S (Proc.devRef .tc main_arg6)
    ∧ after sB2 S (Proc.devRef .tc main_arg7) = S (Proc.devRef .tc main_arg7) := by
  refine ⟨?_, ?_, ?_, ?_, ?_, ?_, ?_, ?_⟩ <;> (seg_lit; after_results_simp)

/-- Layer 1: the edge weights. -/
theorem sB3_norm (hd : (S (Proc.devRef .tc main_v15) : FVec Ideal S50000 .f32) = Cert.Gcn.dinv e)
    (h3 : (S (Proc.devRef .tc main_v3) : IVec S850000 32) = Cert.Gcn.srcIdx e) (h6 : (S (Proc.devRef .tc main_v6) : IVec S850000 32) = Cert.Gcn.dstIdx e) :
    after sB3 S (Proc.devRef .tc main_v30) = Cert.Gcn.norm e := by
  seg_lit; after_results_simp; rw [hd, h3, h6]; rfl
theorem keep_sB3 :
    after sB3 S (Proc.devRef .tc main_v3) = S (Proc.devRef .tc main_v3)
    ∧ after sB3 S (Proc.devRef .tc main_v6) = S (Proc.devRef .tc main_v6)
    ∧ after sB3 S (Proc.devRef .tc main_v7) = S (Proc.devRef .tc main_v7)
    ∧ after sB3 S (Proc.devRef .tc main_arg3) = S (Proc.devRef .tc main_arg3)
    ∧ after sB3 S (Proc.devRef .tc main_arg4) = S (Proc.devRef .tc main_arg4)
    ∧ after sB3 S (Proc.devRef .tc main_arg5) = S (Proc.devRef .tc main_arg5)
    ∧ after sB3 S (Proc.devRef .tc main_arg6) = S (Proc.devRef .tc main_arg6)
    ∧ after sB3 S (Proc.devRef .tc main_arg7) = S (Proc.devRef .tc main_arg7) := by
  refine ⟨?_, ?_, ?_, ?_, ?_, ?_, ?_, ?_⟩ <;> (seg_lit; after_results_simp)

/-- Layer 1: one message-passing step and the bias. -/
theorem sC1_hop (h : FVec Ideal S50000x128 .f32) (b : FVec Ideal S128 .f32)
    (h3 : (S (Proc.devRef .tc main_v3) : IVec S850000 32) = Cert.Gcn.srcIdx e) (h6 : (S (Proc.devRef .tc main_v6) : IVec S850000 32) = Cert.Gcn.dstIdx e)
    (hn : (S (Proc.devRef .tc main_v30) : FVec Ideal S850000 .f32) = Cert.Gcn.norm e) (hh : (S (Proc.devRef .tc main_v7) : FVec Ideal S50000x128 .f32) = h) (hb : (S (Proc.devRef .tc main_arg3) : FVec Ideal S128 .f32) = b) :
    after sC1 S (Proc.devRef .tc main_v46) = addf (Cert.Gcn.hop128 e h) (broadcastInDim S50000x128 ![0, 1] bcast_S1x128_S50000x128_0_1 (broadcastInDim S1x128 ![1] bcast_S128_S1x128_1 b)) := by
  subst hh hb; seg_lit; after_results_simp; rw [h3, h6, hn]; rfl
theorem keep_sC1 :
    after sC1 S (Proc.devRef .tc main_v3) = S (Proc.devRef .tc main_v3)
    ∧ after sC1 S (Proc.devRef .tc main_v6) = S (Proc.devRef .tc main_v6)
    ∧ after sC1 S (Proc.devRef .tc main_arg4) = S (Proc.devRef .tc main_arg4)
    ∧ after sC1 S (Proc.devRef .tc main_arg5) = S (Proc.devRef .tc main_arg5)
    ∧ after sC1 S (Proc.devRef .tc main_arg6) = S (Proc.devRef .tc main_arg6)
    ∧ after sC1 S (Proc.devRef .tc main_arg7) = S (Proc.devRef .tc main_arg7) := by
  refine ⟨?_, ?_, ?_, ?_, ?_, ?_⟩ <;> (seg_lit; after_results_simp)

/-- Layer 1: the clamp at zero, for any array. -/
theorem sC2_relu (a : FVec Ideal S50000x128 .f32) (ha : (S (Proc.devRef .tc main_v46) : FVec Ideal S50000x128 .f32) = a) :
    after sC2 S (Proc.devRef .tc main_v47)
      = maximumf a (broadcastInDim S50000x128 ![] bcast_S_S50000x128 (constant (F := Ideal) S_ .f32 0x00000000#32)) := by
  subst ha; seg_lit; after_results; rfl
theorem keep_sC2 :
    after sC2 S (Proc.devRef .tc main_v3) = S (Proc.devRef .tc main_v3)
    ∧ after sC2 S (Proc.devRef .tc main_v6) = S (Proc.devRef .tc main_v6)
    ∧ after sC2 S (Proc.devRef .tc main_arg4) = S (Proc.devRef .tc main_arg4)
    ∧ after sC2 S (Proc.devRef .tc main_arg5) = S (Proc.devRef .tc main_arg5)
    ∧ after sC2 S (Proc.devRef .tc main_arg6) = S (Proc.devRef .tc main_arg6)
    ∧ after sC2 S (Proc.devRef .tc main_arg7) = S (Proc.devRef .tc main_arg7) := by
  refine ⟨?_, ?_, ?_, ?_, ?_, ?_⟩ <;> (seg_lit; after_results_simp)

/-! ## Layer 2 -/

/-- Layer 2: the feature map, and the degrees compared with zero and under the inverse square root. -/
theorem sD1_dense (x : FVec Ideal S50000x128 .f32) (w : FVec Ideal S128x128 .f32) (hx : (S (Proc.devRef .tc main_v47) : FVec Ideal S50000x128 .f32) = x) (hw : (S (Proc.devRef .tc main_arg4) : FVec Ideal S128x128 .f32) = w) :
    after sD1 S (Proc.devRef .tc main_v48) = Cert.Gcn.dense2 x w := by
  subst hx hw; seg_lit; after_results_simp; rfl
theorem sD1_pos (h6 : (S (Proc.devRef .tc main_v6) : IVec S850000 32) = Cert.Gcn.dstIdx e) :
    after sD1 S (Proc.devRef .tc main_v54) = cmpf .ogt (Cert.Gcn.deg e) (broadcastInDim S50000 ![] bcast_S_S50000 (constant (F := Ideal) S_ .f32 0x00000000#32)) := by
  seg_lit; after_results_simp; rw [h6]; rfl
theorem sD1_rsqrt (h6 : (S (Proc.devRef .tc main_v6) : IVec S850000 32) = Cert.Gcn.dstIdx e) :
    after sD1 S (Proc.devRef .tc main_v55) = Host.rsqrt (Cert.Gcn.deg e) := by
  seg_lit; after_results_simp; rw [h6]; rfl
theorem sD1_zero : after sD1 S (Proc.devRef .tc main_cst_12) = constant (F := Ideal) S_ .f32 0x00000000#32 := by
  seg_lit; after_results_simp
theorem keep_sD1 :
    after sD1 S (Proc.devRef .tc main_v3) = S (Proc.devRef .tc main_v3)
    ∧ after sD1 S (Proc.devRef .tc main_v6) = S (Proc.devRef .tc main_v6)
    ∧ after sD1 S (Proc.devRef .tc main_arg5) = S (Proc.devRef .tc main_arg5)
    ∧ after sD1 S (Proc.devRef .tc main_arg6) = S (Proc.devRef .tc main_arg6)
    ∧ after sD1 S (Proc.devRef .tc main_arg7) = S (Proc.devRef .tc main_arg7) := by
  refine ⟨?_, ?_, ?_, ?_, ?_⟩ <;> (seg_lit; after_results_simp)

/-- Layer 2: the selection that makes dinv, for any condition, array and scalar. -/
theorem sD2_where (cm : IVec S50000 1) (rs : FVec Ideal S50000 .f32) (c0 : FVec Ideal S_ .f32)
    (h12 : (S (Proc.devRef .tc main_v54) : IVec S50000 1) = cm) (h13 : (S (Proc.devRef .tc main_v55) : FVec Ideal S50000 .f32) = rs) (hc : (S (Proc.devRef .tc main_cst_12) : FVec Ideal S_ .f32) = c0) :
    after sD2 S (Proc.devRef .tc main_v56)
      = select cm rs (broadcastInDim S50000 ![] bcast_S_S50000 (id c0)) := by
  subst h12 h13 hc; seg_lit; after_results; rfl
theorem keep_sD2 :
    after sD2 S (Proc.devRef .tc main_v3) = S (Proc.devRef .tc main_v3)
    ∧ after sD2 S (Proc.devRef .tc main_v6) = S (Proc.devRef .tc main_v6)
    ∧ after sD2 S (Proc.devRef .tc main_v48) = S (Proc.devRef .tc main_v48)
    ∧ after sD2 S (Proc.devRef .tc main_arg5) = S (Proc.devRef .tc main_arg5)
    ∧ after sD2 S (Proc.devRef .tc main_arg6) = S (Proc.devRef .tc main_arg6)
    ∧ after sD2 S (Proc.devRef .tc main_arg7) = S (Proc.devRef .tc main_arg7) := by
  refine ⟨?_, ?_, ?_, ?_, ?_, ?_⟩ <;> (seg_lit; after_results_simp)

/-- Layer 2: the edge weights. -/
theorem sD3_norm (hd : (S (Proc.devRef .tc main_v56) : FVec Ideal S50000 .f32) = Cert.Gcn.dinv e)
    (h3 : (S (Proc.devRef .tc main_v3) : IVec S850000 32) = Cert.Gcn.srcIdx e) (h6 : (S (Proc.devRef .tc main_v6) : IVec S850000 32) = Cert.Gcn.dstIdx e) :
    after sD3 S (Proc.devRef .tc main_v71) = Cert.Gcn.norm e := by
  seg_lit; after_results_simp; rw [hd, h3, h6]; rfl
theorem keep_sD3 :
    after sD3 S (Proc.devRef .tc main_v3) = S (Proc.devRef .tc main_v3)
    ∧ after sD3 S (Proc.devRef .tc main_v6) = S (Proc.devRef .tc main_v6)
    ∧ after sD3 S (Proc.devRef .tc main_v48) = S (Proc.devRef .tc main_v48)
    ∧ after sD3 S (Proc.devRef .tc main_arg5) = S (Proc.devRef .tc main_arg5)
    ∧ after sD3 S (Proc.devRef .tc main_arg6) = S (Proc.devRef .tc main_arg6)
    ∧ after sD3 S (Proc.devRef .tc main_arg7) = S (Proc.devRef .tc main_arg7) := by
  refine ⟨?_, ?_, ?_, ?_, ?_, ?_⟩ <;> (seg_lit; after_results_simp)

/-- Layer 2: one message-passing step and the bias. -/
theorem sE1_hop (h : FVec Ideal S50000x128 .f32) (b : FVec Ideal S128 .f32)
    (h3 : (S (Proc.devRef .tc main_v3) : IVec S850000 32) = Cert.Gcn.srcIdx e) (h6 : (S (Proc.devRef .tc main_v6) : IVec S850000 32) = Cert.Gcn.dstIdx e)
    (hn : (S (Proc.devRef .tc main_v71) : FVec Ideal S850000 .f32) = Cert.Gcn.norm e) (hh : (S (Proc.devRef .tc main_v48) : FVec Ideal S50000x128 .f32) = h) (hb : (S (Proc.devRef .tc main_arg5) : FVec Ideal S128 .f32) = b) :
    after sE1 S (Proc.devRef .tc main_v87) = addf (Cert.Gcn.hop128 e h) (broadcastInDim S50000x128 ![0, 1] bcast_S1x128_S50000x128_0_1 (broadcastInDim S1x128 ![1] bcast_S128_S1x128_1 b)) := by
  subst hh hb; seg_lit; after_results_simp; rw [h3, h6, hn]; rfl
theorem keep_sE1 :
    after sE1 S (Proc.devRef .tc main_v3) = S (Proc.devRef .tc main_v3)
    ∧ after sE1 S (Proc.devRef .tc main_v6) = S (Proc.devRef .tc main_v6)
    ∧ after sE1 S (Proc.devRef .tc main_arg6) = S (Proc.devRef .tc main_arg6)
    ∧ after sE1 S (Proc.devRef .tc main_arg7) = S (Proc.devRef .tc main_arg7) := by
  refine ⟨?_, ?_, ?_, ?_⟩ <;> (seg_lit; after_results_simp)

/-- Layer 2: the clamp at zero, for any array. -/
theorem sE2_relu (a : FVec Ideal S50000x128 .f32) (ha : (S (Proc.devRef .tc main_v87) : FVec Ideal S50000x128 .f32) = a) :
    after sE2 S (Proc.devRef .tc main_v88)
      = maximumf a (broadcastInDim S50000x128 ![] bcast_S_S50000x128 (constant (F := Ideal) S_ .f32 0x00000000#32)) := by
  subst ha; seg_lit; after_results; rfl
theorem keep_sE2 :
    after sE2 S (Proc.devRef .tc main_v3) = S (Proc.devRef .tc main_v3)
    ∧ after sE2 S (Proc.devRef .tc main_v6) = S (Proc.devRef .tc main_v6)
    ∧ after sE2 S (Proc.devRef .tc main_arg6) = S (Proc.devRef .tc main_arg6)
    ∧ after sE2 S (Proc.devRef .tc main_arg7) = S (Proc.devRef .tc main_arg7) := by
  refine ⟨?_, ?_, ?_, ?_⟩ <;> (seg_lit; after_results_simp)

/-! ## Layer 3 -/

/-- Layer 3: the feature map, and the degrees compared with zero and under the inverse square root. -/
theorem sF1_dense (x : FVec Ideal S50000x128 .f32) (w : FVec Ideal S128x40 .f32) (hx : (S (Proc.devRef .tc main_v88) : FVec Ideal S50000x128 .f32) = x) (hw : (S (Proc.devRef .tc main_arg6) : FVec Ideal S128x40 .f32) = w) :
    after sF1 S (Proc.devRef .tc main_v89) = Cert.Gcn.dense3 x w := by
  subst hx hw; seg_lit; after_results_simp; rfl
theorem sF1_pos (h6 : (S (Proc.devRef .tc main_v6) : IVec S850000 32) = Cert.Gcn.dstIdx e) :
    after sF1 S (Proc.devRef .tc main_v95) = cmpf .ogt (Cert.Gcn.deg e) (broadcastInDim S50000 ![] bcast_S_S50000 (constant (F := Ideal) S_ .f32 0x00000000#32)) := by
  seg_lit; after_results_simp; rw [h6]; rfl
theorem sF1_rsqrt (h6 : (S (Proc.devRef .tc main_v6) : IVec S850000 32) = Cert.Gcn.dstIdx e) :
    after sF1 S (Proc.devRef .tc main_v96) = Host.rsqrt (Cert.Gcn.deg e) := by
  seg_lit; after_results_simp; rw [h6]; rfl
theorem sF1_zero : after sF1 S (Proc.devRef .tc main_cst_23) = constant (F := Ideal) S_ .f32 0x00000000#32 := by
  seg_lit; after_results_simp
theorem keep_sF1 :
    after sF1 S (Proc.devRef .tc main_v3) = S (Proc.devRef .tc main_v3)
    ∧ after sF1 S (Proc.devRef .tc main_v6) = S (Proc.devRef .tc main_v6)
    ∧ after sF1 S (Proc.devRef .tc main_arg7) = S (Proc.devRef .tc main_arg7) := by
  refine ⟨?_, ?_, ?_⟩ <;> (seg_lit; after_results_simp)

/-- Layer 3: the selection that makes dinv, for any condition, array and scalar. -/
theorem sF2_where (cm : IVec S50000 1) (rs : FVec Ideal S50000 .f32) (c0 : FVec Ideal S_ .f32)
    (h12 : (S (Proc.devRef .tc main_v95) : IVec S50000 1) = cm) (h13 : (S (Proc.devRef .tc main_v96) : FVec Ideal S50000 .f32) = rs) (hc : (S (Proc.devRef .tc main_cst_23) : FVec Ideal S_ .f32) = c0) :
    after sF2 S (Proc.devRef .tc main_v97)
      = select cm rs (broadcastInDim S50000 ![] bcast_S_S50000 (id c0)) := by
  subst h12 h13 hc; seg_lit; after_results; rfl
theorem keep_sF2 :
    after sF2 S (Proc.devRef .tc main_v3) = S (Proc.devRef .tc main_v3)
    ∧ after sF2 S (Proc.devRef .tc main_v6) = S (Proc.devRef .tc main_v6)
    ∧ after sF2 S (Proc.devRef .tc main_v89) = S (Proc.devRef .tc main_v89)
    ∧ after sF2 S (Proc.devRef .tc main_arg7) = S (Proc.devRef .tc main_arg7) := by
  refine ⟨?_, ?_, ?_, ?_⟩ <;> (seg_lit; after_results_simp)

/-- Layer 3: the edge weights. -/
theorem sF3_norm (hd : (S (Proc.devRef .tc main_v97) : FVec Ideal S50000 .f32) = Cert.Gcn.dinv e)
    (h3 : (S (Proc.devRef .tc main_v3) : IVec S850000 32) = Cert.Gcn.srcIdx e) (h6 : (S (Proc.devRef .tc main_v6) : IVec S850000 32) = Cert.Gcn.dstIdx e) :
    after sF3 S (Proc.devRef .tc main_v112) = Cert.Gcn.norm e := by
  seg_lit; after_results_simp; rw [hd, h3, h6]; rfl
theorem keep_sF3 :
    after sF3 S (Proc.devRef .tc main_v3) = S (Proc.devRef .tc main_v3)
    ∧ after sF3 S (Proc.devRef .tc main_v6) = S (Proc.devRef .tc main_v6)
    ∧ after sF3 S (Proc.devRef .tc main_v89) = S (Proc.devRef .tc main_v89)
    ∧ after sF3 S (Proc.devRef .tc main_arg7) = S (Proc.devRef .tc main_arg7) := by
  refine ⟨?_, ?_, ?_, ?_⟩ <;> (seg_lit; after_results_simp)

/-- Layer 3: one message-passing step and the bias. -/
theorem sG1_hop (h : FVec Ideal S50000x40 .f32) (b : FVec Ideal S40 .f32)
    (h3 : (S (Proc.devRef .tc main_v3) : IVec S850000 32) = Cert.Gcn.srcIdx e) (h6 : (S (Proc.devRef .tc main_v6) : IVec S850000 32) = Cert.Gcn.dstIdx e)
    (hn : (S (Proc.devRef .tc main_v112) : FVec Ideal S850000 .f32) = Cert.Gcn.norm e) (hh : (S (Proc.devRef .tc main_v89) : FVec Ideal S50000x40 .f32) = h) (hb : (S (Proc.devRef .tc main_arg7) : FVec Ideal S40 .f32) = b) :
    after sG1 S (Proc.devRef .tc main_v128) = Cert.Gcn.bias40 (Cert.Gcn.hop40 e h) b := by
  subst hh hb; seg_lit; after_results_simp; rw [h3, h6, hn]; rfl

/-! ## The log-softmax -/

/-- A value written to a buffer and read back at the value's own type is the value (the two transports cancel). -/
theorem ofBuf_toBuf {T : BufTy} (x : TRef sig T) (v : T.Contents (Elt Ideal)) : x.ofBuf (x.toBuf v) = v := by
  obtain ⟨r, h, hd, hu⟩ := x; subst h; rfl

/-- At the result buffer and at the biased features' buffer the transport is the identity. -/
theorem toBuf_v129 (h1 h2 h3) (v : FVec Ideal S50000x40 .f32) :
    (TRef.of (T := ⟨S50000x40, .f32⟩) main_v129 h1 h2 h3).toBuf (Val := Elt Ideal) v = v := rfl
theorem ofBuf_v128 (h1 h2 h3) (v : FVec Ideal S50000x40 .f32) :
    (TRef.of (T := ⟨S50000x40, .f32⟩) main_v128 h1 h2 h3).ofBuf (Val := Elt Ideal) v = v := rfl

/-- The last fifteen operations are the row-wise log-softmax of whatever the biased features are. -/
theorem sG2_softmax (z : FVec Ideal S50000x40 .f32) (hz : (S (Proc.devRef .tc main_v128) : FVec Ideal S50000x40 .f32) = z) :
    after sG2 S (Proc.devRef .tc main_v129) = Cert.Gcn.logSoftmax z := by
  subst hz; seg_lit; after_results
  simp only [ofBuf_toBuf]
  refine (toBuf_v129 _ _ _ _).trans ?_
  simp only [ofBuf_v128]
  rfl

end Cert.ReferenceIdeal.GcnStages

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.ReferenceValue.lean ====
/-
  The reference program's result is the network.  Its 187 host operations run as a fold over the list; the fold is cut
  at the sixteen pieces of `ReferenceStages`, and going through the pieces in order — each fact about a piece's
  output resting on the facts about the buffers it reads — the result buffer ends holding `Cert.Gcn.net` of the launch
  contents of the eight arguments (the reference recomputes the edge weights in every layer: three times the same
  function of the edge list).  With the library's run of a straight line of host operations this gives the program's
  run: every weakly fair execution terminates with the result at the network and the arguments unchanged.
-/
import proofs.«101067_j10136122819080_2_alg».proof.Proof.ReferenceStages
import proofs.«101067_j10136122819080_2_alg».proof.Proof.LibAfterSplit

set_option maxRecDepth 16384

noncomputable section

namespace Cert.ReferenceIdeal.GcnValue

open Idealize.ShloMosaic Idealize.ShloMosaic.TcCoe Idealize.SL.Sem Idealize.ShloMosaic.StableHlo
open Cert.ReferenceIdeal Cert.ReferenceIdeal.ValueP Cert.ReferenceIdeal.Facts₀ Cert.ReferenceIdeal.Facts
open Cert.ReferenceIdeal.GcnStages Cert.AfterSplit

/-- The whole list is its sixteen pieces one after the other. -/
theorem split (V : Valuation τ sig (Elt Ideal)) :
    after L0 V = after sG2 (after sG1 (after sF3 (after sF2 (after sF1 (after sE2 (after sE1 (after sD3 (after sD2 (after sD1 (after sC2 (after sC1 (after sB3 (after sB2 (after sB1 (after sA (V)))))))))))))))) :=
  (after_take_drop L0 7 V).trans <|
    (after_take_drop L1 12 _).trans <|
    (after_take_drop L2 3 _).trans <|
    (after_take_drop L3 19 _).trans <|
    (after_take_drop L4 19 _).trans <|
    (after_take_drop L5 3 _).trans <|
    (after_take_drop L6 12 _).trans <|
    (after_take_drop L7 3 _).trans <|
    (after_take_drop L8 19 _).trans <|
    (after_take_drop L9 19 _).trans <|
    (after_take_drop L10 3 _).trans <|
    (after_take_drop L11 12 _).trans <|
    (after_take_drop L12 3 _).trans <|
    (after_take_drop L13 19 _).trans <|
    (after_take_drop L14 19 _)

variable (m : (ℓ : Loc nD τ sig) → Buf (Elt Ideal) ℓ) (c : Dev nD)

/-- The launch contents of the arguments. -/
abbrev x0 : FVec Ideal S50000x256 .f32 := m ((c.tc : Thread nD τ).loc main_arg0)
abbrev ed : IVec S2x800000 32 := m ((c.tc : Thread nD τ).loc main_arg1)
abbrev w1 : FVec Ideal S256x128 .f32 := m ((c.tc : Thread nD τ).loc main_arg2)
abbrev b1 : FVec Ideal S128 .f32 := m ((c.tc : Thread nD τ).loc main_arg3)
abbrev w2 : FVec Ideal S128x128 .f32 := m ((c.tc : Thread nD τ).loc main_arg4)
abbrev b2 : FVec Ideal S128 .f32 := m ((c.tc : Thread nD τ).loc main_arg5)
abbrev w3 : FVec Ideal S128x40 .f32 := m ((c.tc : Thread nD τ).loc main_arg6)
abbrev b3 : FVec Ideal S40 .f32 := m ((c.tc : Thread nD τ).loc main_arg7)

/-! ## The buffer contents after each piece -/

abbrev V0 : Valuation τ sig (Elt Ideal) := launchContents m c
abbrev VA : Valuation τ sig (Elt Ideal) := after sA (V0 m c)
theorem VA_v3 : VA m c (Proc.devRef .tc main_v3) = Cert.Gcn.srcIdx (ed m c) := sA_src (V0 m c) _ rfl
theorem VA_v6 : VA m c (Proc.devRef .tc main_v6) = Cert.Gcn.dstIdx (ed m c) := sA_dst (V0 m c) _ rfl
theorem VA_arg0 : VA m c (Proc.devRef .tc main_arg0) = x0 m c := (keep_sA (V0 m c)).1
theorem VA_arg2 : VA m c (Proc.devRef .tc main_arg2) = w1 m c := (keep_sA (V0 m c)).2.1
theorem VA_arg3 : VA m c (Proc.devRef .tc main_arg3) = b1 m c := (keep_sA (V0 m c)).2.2.1
theorem VA_arg4 : VA m c (Proc.devRef .tc main_arg4) = w2 m c := (keep_sA (V0 m c)).2.2.2.1
theorem VA_arg5 : VA m c (Proc.devRef .tc main_arg5) = b2 m c := (keep_sA (V0 m c)).2.2.2.2.1
theorem VA_arg6 : VA m c (Proc.devRef .tc main_arg6) = w3 m c := (keep_sA (V0 m c)).2.2.2.2.2.1
theorem VA_arg7 : VA m c (Proc.devRef .tc main_arg7) = b3 m c := (keep_sA (V0 m c)).2.2.2.2.2.2

/-! ### Layer 1 -/

abbrev VB1 : Valuation τ sig (Elt Ideal) := after sB1 (VA m c)
theorem VB1_dense : VB1 m c (Proc.devRef .tc main_v7) = Cert.Gcn.dense1 (x0 m c) (w1 m c) := sB1_dense (VA m c) _ _ (VA_arg0 m c) (VA_arg2 m c)
theorem VB1_v3 : VB1 m c (Proc.devRef .tc main_v3) = Cert.Gcn.srcIdx (ed m c) := (keep_sB1 (VA m c)).1.trans (VA_v3 m c)
theorem VB1_v6 : VB1 m c (Proc.devRef .tc main_v6) = Cert.Gcn.dstIdx (ed m c) := (keep_sB1 (VA m c)).2.1.trans (VA_v6 m c)
theorem VB1_arg3 : VB1 m c (Proc.devRef .tc main_arg3) = b1 m c := (keep_sB1 (VA m c)).2.2.1.trans (VA_arg3 m c)
theorem VB1_arg4 : VB1 m c (Proc.devRef .tc main_arg4) = w2 m c := (keep_sB1 (VA m c)).2.2.2.1.trans (VA_arg4 m c)
theorem VB1_arg5 : VB1 m c (Proc.devRef .tc main_arg5) = b2 m c := (keep_sB1 (VA m c)).2.2.2.2.1.trans (VA_arg5 m c)
theorem VB1_arg6 : VB1 m c (Proc.devRef .tc main_arg6) = w3 m c := (keep_sB1 (VA m c)).2.2.2.2.2.1.trans (VA_arg6 m c)
theorem VB1_arg7 : VB1 m c (Proc.devRef .tc main_arg7) = b3 m c := (keep_sB1 (VA m c)).2.2.2.2.2.2.trans (VA_arg7 m c)
abbrev VB2 : Valuation τ sig (Elt Ideal) := after sB2 (VB1 m c)
theorem VB2_dinv : VB2 m c (Proc.devRef .tc main_v15) = Cert.Gcn.dinv (ed m c) := sB2_where (VB1 m c) _ _ _ (sB1_pos (VA m c) _ (VA_v6 m c)) (sB1_rsqrt (VA m c) _ (VA_v6 m c)) (sB1_zero (VA m c))
theorem VB2_v3 : VB2 m c (Proc.devRef .tc main_v3) = Cert.Gcn.srcIdx (ed m c) := (keep_sB2 (VB1 m c)).1.trans (VB1_v3 m c)
theorem VB2_v6 : VB2 m c (Proc.devRef .tc main_v6) = Cert.Gcn.dstIdx (ed m c) := (keep_sB2 (VB1 m c)).2.1.trans (VB1_v6 m c)
theorem VB2_v7 : VB2 m c (Proc.devRef .tc main_v7) = Cert.Gcn.dense1 (x0 m c) (w1 m c) := (keep_sB2 (VB1 m c)).2.2.1.trans (VB1_dense m c)
theorem VB2_arg3 : VB2 m c (Proc.devRef .tc main_arg3) = b1 m c := (keep_sB2 (VB1 m c)).2.2.2.1.trans (VB1_arg3 m c)
theorem VB2_arg4 : VB2 m c (Proc.devRef .tc main_arg4) = w2 m c := (keep_sB2 (VB1 m c)).2.2.2.2.1.trans (VB1_arg4 m c)
theorem VB2_arg5 : VB2 m c (Proc.devRef .tc main_arg5) = b2 m c := (keep_sB2 (VB1 m c)).2.2.2.2.2.1.trans (VB1_arg5 m c)
theorem VB2_arg6 : VB2 m c (Proc.devRef .tc main_arg6) = w3 m c := (keep_sB2 (VB1 m c)).2.2.2.2.2.2.1.trans (VB1_arg6 m c)
theorem VB2_arg7 : VB2 m c (Proc.devRef .tc main_arg7) = b3 m c := (keep_sB2 (VB1 m c)).2.2.2.2.2.2.2.trans (VB1_arg7 m c)
abbrev VB3 : Valuation τ sig (Elt Ideal) := after sB3 (VB2 m c)
theorem VB3_norm : VB3 m c (Proc.devRef .tc main_v30) = Cert.Gcn.norm (ed m c) := sB3_norm (VB2 m c) _ (VB2_dinv m c) (VB2_v3 m c) (VB2_v6 m c)
theorem VB3_v3 : VB3 m c (Proc.devRef .tc main_v3) = Cert.Gcn.srcIdx (ed m c) := (keep_sB3 (VB2 m c)).1.trans (VB2_v3 m c)
theorem VB3_v6 : VB3 m c (Proc.devRef .tc main_v6) = Cert.Gcn.dstIdx (ed m c) := (keep_sB3 (VB2 m c)).2.1.trans (VB2_v6 m c)
theorem VB3_v7 : VB3 m c (Proc.devRef .tc main_v7) = Cert.Gcn.dense1 (x0 m c) (w1 m c) := (keep_sB3 (VB2 m c)).2.2.1.trans (VB2_v7 m c)
theorem VB3_arg3 : VB3 m c (Proc.devRef .tc main_arg3) = b1 m c := (keep_sB3 (VB2 m c)).2.2.2.1.trans (VB2_arg3 m c)
theorem VB3_arg4 : VB3 m c (Proc.devRef .tc main_arg4) = w2 m c := (keep_sB3 (VB2 m c)).2.2.2.2.1.trans (VB2_arg4 m c)
theorem VB3_arg5 : VB3 m c (Proc.devRef .tc main_arg5) = b2 m c := (keep_sB3 (VB2 m c)).2.2.2.2.2.1.trans (VB2_arg5 m c)
theorem VB3_arg6 : VB3 m c (Proc.devRef .tc main_arg6) = w3 m c := (keep_sB3 (VB2 m c)).2.2.2.2.2.2.1.trans (VB2_arg6 m c)
theorem VB3_arg7 : VB3 m c (Proc.devRef .tc main_arg7) = b3 m c := (keep_sB3 (VB2 m c)).2.2.2.2.2.2.2.trans (VB2_arg7 m c)
abbrev VC1 : Valuation τ sig (Elt Ideal) := after sC1 (VB3 m c)
theorem VC1_biased : VC1 m c (Proc.devRef .tc main_v46) = addf (Cert.Gcn.hop128 (ed m c) (Cert.Gcn.dense1 (x0 m c) (w1 m c))) (broadcastInDim S50000x128 ![0, 1] bcast_S1x128_S50000x128_0_1 (broadcastInDim S1x128 ![1] bcast_S128_S1x128_1 (b1 m c))) := sC1_hop (VB3 m c) _ _ _ (VB3_v3 m c) (VB3_v6 m c) (VB3_norm m c) (VB3_v7 m c) (VB3_arg3 m c)
theorem VC1_v3 : VC1 m c (Proc.devRef .tc main_v3) = Cert.Gcn.srcIdx (ed m c) := (keep_sC1 (VB3 m c)).1.trans (VB3_v3 m c)
theorem VC1_v6 : VC1 m c (Proc.devRef .tc main_v6) = Cert.Gcn.dstIdx (ed m c) := (keep_sC1 (VB3 m c)).2.1.trans (VB3_v6 m c)
theorem VC1_arg4 : VC1 m c (Proc.devRef .tc main_arg4) = w2 m c := (keep_sC1 (VB3 m c)).2.2.1.trans (VB3_arg4 m c)
theorem VC1_arg5 : VC1 m c (Proc.devRef .tc main_arg5) = b2 m c := (keep_sC1 (VB3 m c)).2.2.2.1.trans (VB3_arg5 m c)
theorem VC1_arg6 : VC1 m c (Proc.devRef .tc main_arg6) = w3 m c := (keep_sC1 (VB3 m c)).2.2.2.2.1.trans (VB3_arg6 m c)
theorem VC1_arg7 : VC1 m c (Proc.devRef .tc main_arg7) = b3 m c := (keep_sC1 (VB3 m c)).2.2.2.2.2.trans (VB3_arg7 m c)
abbrev VC2 : Valuation τ sig (Elt Ideal) := after sC2 (VC1 m c)
theorem VC2_relu : VC2 m c (Proc.devRef .tc main_v47) = Cert.Gcn.biasRelu (Cert.Gcn.hop128 (ed m c) (Cert.Gcn.dense1 (x0 m c) (w1 m c))) (b1 m c) := sC2_relu (VC1 m c) _ (VC1_biased m c)
theorem VC2_v3 : VC2 m c (Proc.devRef .tc main_v3) = Cert.Gcn.srcIdx (ed m c) := (keep_sC2 (VC1 m c)).1.trans (VC1_v3 m c)
theorem VC2_v6 : VC2 m c (Proc.devRef .tc main_v6) = Cert.Gcn.dstIdx (ed m c) := (keep_sC2 (VC1 m c)).2.1.trans (VC1_v6 m c)
theorem VC2_arg4 : VC2 m c (Proc.devRef .tc main_arg4) = w2 m c := (keep_sC2 (VC1 m c)).2.2.1.trans (VC1_arg4 m c)
theorem VC2_arg5 : VC2 m c (Proc.devRef .tc main_arg5) = b2 m c := (keep_sC2 (VC1 m c)).2.2.2.1.trans (VC1_arg5 m c)
theorem VC2_arg6 : VC2 m c (Proc.devRef .tc main_arg6) = w3 m c := (keep_sC2 (VC1 m c)).2.2.2.2.1.trans (VC1_arg6 m c)
theorem VC2_arg7 : VC2 m c (Proc.devRef .tc main_arg7) = b3 m c := (keep_sC2 (VC1 m c)).2.2.2.2.2.trans (VC1_arg7 m c)

/-! ### Layer 2 -/

abbrev VD1 : Valuation τ sig (Elt Ideal) := after sD1 (VC2 m c)
theorem VD1_dense : VD1 m c (Proc.devRef .tc main_v48) = Cert.Gcn.dense2 (Cert.Gcn.biasRelu (Cert.Gcn.hop128 (ed m c) (Cert.Gcn.dense1 (x0 m c) (w1 m c))) (b1 m c)) (w2 m c) := sD1_dense (VC2 m c) _ _ (VC2_relu m c) (VC2_arg4 m c)
theorem VD1_v3 : VD1 m c (Proc.devRef .tc main_v3) = Cert.Gcn.srcIdx (ed m c) := (keep_sD1 (VC2 m c)).1.trans (VC2_v3 m c)
theorem VD1_v6 : VD1 m c (Proc.devRef .tc main_v6) = Cert.Gcn.dstIdx (ed m c) := (keep_sD1 (VC2 m c)).2.1.trans (VC2_v6 m c)
theorem VD1_arg5 : VD1 m c (Proc.devRef .tc main_arg5) = b2 m c := (keep_sD1 (VC2 m c)).2.2.1.trans (VC2_arg5 m c)
theorem VD1_arg6 : VD1 m c (Proc.devRef .tc main_arg6) = w3 m c := (keep_sD1 (VC2 m c)).2.2.2.1.trans (VC2_arg6 m c)
theorem VD1_arg7 : VD1 m c (Proc.devRef .tc main_arg7) = b3 m c := (keep_sD1 (VC2 m c)).2.2.2.2.trans (VC2_arg7 m c)
abbrev VD2 : Valuation τ sig (Elt Ideal) := after sD2 (VD1 m c)
theorem VD2_dinv : VD2 m c (Proc.devRef .tc main_v56) = Cert.Gcn.dinv (ed m c) := sD2_where (VD1 m c) _ _ _ (sD1_pos (VC2 m c) _ (VC2_v6 m c)) (sD1_rsqrt (VC2 m c) _ (VC2_v6 m c)) (sD1_zero (VC2 m c))
theorem VD2_v3 : VD2 m c (Proc.devRef .tc main_v3) = Cert.Gcn.srcIdx (ed m c) := (keep_sD2 (VD1 m c)).1.trans (VD1_v3 m c)
theorem VD2_v6 : VD2 m c (Proc.devRef .tc main_v6) = Cert.Gcn.dstIdx (ed m c) := (keep_sD2 (VD1 m c)).2.1.trans (VD1_v6 m c)
theorem VD2_v48 : VD2 m c (Proc.devRef .tc main_v48) = Cert.Gcn.dense2 (Cert.Gcn.biasRelu (Cert.Gcn.hop128 (ed m c) (Cert.Gcn.dense1 (x0 m c) (w1 m c))) (b1 m c)) (w2 m c) := (keep_sD2 (VD1 m c)).2.2.1.trans (VD1_dense m c)
theorem VD2_arg5 : VD2 m c (Proc.devRef .tc main_arg5) = b2 m c := (keep_sD2 (VD1 m c)).2.2.2.1.trans (VD1_arg5 m c)
theorem VD2_arg6 : VD2 m c (Proc.devRef .tc main_arg6) = w3 m c := (keep_sD2 (VD1 m c)).2.2.2.2.1.trans (VD1_arg6 m c)
theorem VD2_arg7 : VD2 m c (Proc.devRef .tc main_arg7) = b3 m c := (keep_sD2 (VD1 m c)).2.2.2.2.2.trans (VD1_arg7 m c)
abbrev VD3 : Valuation τ sig (Elt Ideal) := after sD3 (VD2 m c)
theorem VD3_norm : VD3 m c (Proc.devRef .tc main_v71) = Cert.Gcn.norm (ed m c) := sD3_norm (VD2 m c) _ (VD2_dinv m c) (VD2_v3 m c) (VD2_v6 m c)
theorem VD3_v3 : VD3 m c (Proc.devRef .tc main_v3) = Cert.Gcn.srcIdx (ed m c) := (keep_sD3 (VD2 m c)).1.trans (VD2_v3 m c)
theorem VD3_v6 : VD3 m c (Proc.devRef .tc main_v6) = Cert.Gcn.dstIdx (ed m c) := (keep_sD3 (VD2 m c)).2.1.trans (VD2_v6 m c)
theorem VD3_v48 : VD3 m c (Proc.devRef .tc main_v48) = Cert.Gcn.dense2 (Cert.Gcn.biasRelu (Cert.Gcn.hop128 (ed m c) (Cert.Gcn.dense1 (x0 m c) (w1 m c))) (b1 m c)) (w2 m c) := (keep_sD3 (VD2 m c)).2.2.1.trans (VD2_v48 m c)
theorem VD3_arg5 : VD3 m c (Proc.devRef .tc main_arg5) = b2 m c := (keep_sD3 (VD2 m c)).2.2.2.1.trans (VD2_arg5 m c)
theorem VD3_arg6 : VD3 m c (Proc.devRef .tc main_arg6) = w3 m c := (keep_sD3 (VD2 m c)).2.2.2.2.1.trans (VD2_arg6 m c)
theorem VD3_arg7 : VD3 m c (Proc.devRef .tc main_arg7) = b3 m c := (keep_sD3 (VD2 m c)).2.2.2.2.2.trans (VD2_arg7 m c)
abbrev VE1 : Valuation τ sig (Elt Ideal) := after sE1 (VD3 m c)
theorem VE1_biased : VE1 m c (Proc.devRef .tc main_v87) = addf (Cert.Gcn.hop128 (ed m c) (Cert.Gcn.dense2 (Cert.Gcn.biasRelu (Cert.Gcn.hop128 (ed m c) (Cert.Gcn.dense1 (x0 m c) (w1 m c))) (b1 m c)) (w2 m c))) (broadcastInDim S50000x128 ![0, 1] bcast_S1x128_S50000x128_0_1 (broadcastInDim S1x128 ![1] bcast_S128_S1x128_1 (b2 m c))) := sE1_hop (VD3 m c) _ _ _ (VD3_v3 m c) (VD3_v6 m c) (VD3_norm m c) (VD3_v48 m c) (VD3_arg5 m c)
theorem VE1_v3 : VE1 m c (Proc.devRef .tc main_v3) = Cert.Gcn.srcIdx (ed m c) := (keep_sE1 (VD3 m c)).1.trans (VD3_v3 m c)
theorem VE1_v6 : VE1 m c (Proc.devRef .tc main_v6) = Cert.Gcn.dstIdx (ed m c) := (keep_sE1 (VD3 m c)).2.1.trans (VD3_v6 m c)
theorem VE1_arg6 : VE1 m c (Proc.devRef .tc main_arg6) = w3 m c := (keep_sE1 (VD3 m c)).2.2.1.trans (VD3_arg6 m c)
theorem VE1_arg7 : VE1 m c (Proc.devRef .tc main_arg7) = b3 m c := (keep_sE1 (VD3 m c)).2.2.2.trans (VD3_arg7 m c)
abbrev VE2 : Valuation τ sig (Elt Ideal) := after sE2 (VE1 m c)
theorem VE2_relu : VE2 m c (Proc.devRef .tc main_v88) = Cert.Gcn.biasRelu (Cert.Gcn.hop128 (ed m c) (Cert.Gcn.dense2 (Cert.Gcn.biasRelu (Cert.Gcn.hop128 (ed m c) (Cert.Gcn.dense1 (x0 m c) (w1 m c))) (b1 m c)) (w2 m c))) (b2 m c) := sE2_relu (VE1 m c) _ (VE1_biased m c)
theorem VE2_v3 : VE2 m c (Proc.devRef .tc main_v3) = Cert.Gcn.srcIdx (ed m c) := (keep_sE2 (VE1 m c)).1.trans (VE1_v3 m c)
theorem VE2_v6 : VE2 m c (Proc.devRef .tc main_v6) = Cert.Gcn.dstIdx (ed m c) := (keep_sE2 (VE1 m c)).2.1.trans (VE1_v6 m c)
theorem VE2_arg6 : VE2 m c (Proc.devRef .tc main_arg6) = w3 m c := (keep_sE2 (VE1 m c)).2.2.1.trans (VE1_arg6 m c)
theorem VE2_arg7 : VE2 m c (Proc.devRef .tc main_arg7) = b3 m c := (keep_sE2 (VE1 m c)).2.2.2.trans (VE1_arg7 m c)

/-! ### Layer 3 -/

abbrev VF1 : Valuation τ sig (Elt Ideal) := after sF1 (VE2 m c)
theorem VF1_dense : VF1 m c (Proc.devRef .tc main_v89) = Cert.Gcn.dense3 (Cert.Gcn.biasRelu (Cert.Gcn.hop128 (ed m c) (Cert.Gcn.dense2 (Cert.Gcn.biasRelu (Cert.Gcn.hop128 (ed m c) (Cert.Gcn.dense1 (x0 m c) (w1 m c))) (b1 m c)) (w2 m c))) (b2 m c)) (w3 m c) := sF1_dense (VE2 m c) _ _ (VE2_relu m c) (VE2_arg6 m c)
theorem VF1_v3 : VF1 m c (Proc.devRef .tc main_v3) = Cert.Gcn.srcIdx (ed m c) := (keep_sF1 (VE2 m c)).1.trans (VE2_v3 m c)
theorem VF1_v6 : VF1 m c (Proc.devRef .tc main_v6) = Cert.Gcn.dstIdx (ed m c) := (keep_sF1 (VE2 m c)).2.1.trans (VE2_v6 m c)
theorem VF1_arg7 : VF1 m c (Proc.devRef .tc main_arg7) = b3 m c := (keep_sF1 (VE2 m c)).2.2.trans (VE2_arg7 m c)
abbrev VF2 : Valuation τ sig (Elt Ideal) := after sF2 (VF1 m c)
theorem VF2_dinv : VF2 m c (Proc.devRef .tc main_v97) = Cert.Gcn.dinv (ed m c) := sF2_where (VF1 m c) _ _ _ (sF1_pos (VE2 m c) _ (VE2_v6 m c)) (sF1_rsqrt (VE2 m c) _ (VE2_v6 m c)) (sF1_zero (VE2 m c))
theorem VF2_v3 : VF2 m c (Proc.devRef .tc main_v3) = Cert.Gcn.srcIdx (ed m c) := (keep_sF2 (VF1 m c)).1.trans (VF1_v3 m c)
theorem VF2_v6 : VF2 m c (Proc.devRef .tc main_v6) = Cert.Gcn.dstIdx (ed m c) := (keep_sF2 (VF1 m c)).2.1.trans (VF1_v6 m c)
theorem VF2_v89 : VF2 m c (Proc.devRef .tc main_v89) = Cert.Gcn.dense3 (Cert.Gcn.biasRelu (Cert.Gcn.hop128 (ed m c) (Cert.Gcn.dense2 (Cert.Gcn.biasRelu (Cert.Gcn.hop128 (ed m c) (Cert.Gcn.dense1 (x0 m c) (w1 m c))) (b1 m c)) (w2 m c))) (b2 m c)) (w3 m c) := (keep_sF2 (VF1 m c)).2.2.1.trans (VF1_dense m c)
theorem VF2_arg7 : VF2 m c (Proc.devRef .tc main_arg7) = b3 m c := (keep_sF2 (VF1 m c)).2.2.2.trans (VF1_arg7 m c)
abbrev VF3 : Valuation τ sig (Elt Ideal) := after sF3 (VF2 m c)
theorem VF3_norm : VF3 m c (Proc.devRef .tc main_v112) = Cert.Gcn.norm (ed m c) := sF3_norm (VF2 m c) _ (VF2_dinv m c) (VF2_v3 m c) (VF2_v6 m c)
theorem VF3_v3 : VF3 m c (Proc.devRef .tc main_v3) = Cert.Gcn.srcIdx (ed m c) := (keep_sF3 (VF2 m c)).1.trans (VF2_v3 m c)
theorem VF3_v6 : VF3 m c (Proc.devRef .tc main_v6) = Cert.Gcn.dstIdx (ed m c) := (keep_sF3 (VF2 m c)).2.1.trans (VF2_v6 m c)
theorem VF3_v89 : VF3 m c (Proc.devRef .tc main_v89) = Cert.Gcn.dense3 (Cert.Gcn.biasRelu (Cert.Gcn.hop128 (ed m c) (Cert.Gcn.dense2 (Cert.Gcn.biasRelu (Cert.Gcn.hop128 (ed m c) (Cert.Gcn.dense1 (x0 m c) (w1 m c))) (b1 m c)) (w2 m c))) (b2 m c)) (w3 m c) := (keep_sF3 (VF2 m c)).2.2.1.trans (VF2_v89 m c)
theorem VF3_arg7 : VF3 m c (Proc.devRef .tc main_arg7) = b3 m c := (keep_sF3 (VF2 m c)).2.2.2.trans (VF2_arg7 m c)
abbrev VG1 : Valuation τ sig (Elt Ideal) := after sG1 (VF3 m c)
theorem VG1_biased : VG1 m c (Proc.devRef .tc main_v128) = Cert.Gcn.bias40 (Cert.Gcn.hop40 (ed m c) (Cert.Gcn.dense3 (Cert.Gcn.biasRelu (Cert.Gcn.hop128 (ed m c) (Cert.Gcn.dense2 (Cert.Gcn.biasRelu (Cert.Gcn.hop128 (ed m c) (Cert.Gcn.dense1 (x0 m c) (w1 m c))) (b1 m c)) (w2 m c))) (b2 m c)) (w3 m c))) (b3 m c) := sG1_hop (VF3 m c) _ _ _ (VF3_v3 m c) (VF3_v6 m c) (VF3_norm m c) (VF3_v89 m c) (VF3_arg7 m c)

/-- The result buffer after all 187 operations holds the network of the launch contents. -/
theorem value_eq : after (ops (F := Ideal)) (launchContents m c) (Proc.devRef .tc main_v129)
    = Cert.Gcn.net (x0 m c) (ed m c) (w1 m c) (b1 m c) (w2 m c) (b2 m c) (w3 m c) (b3 m c) := by
  have hs := split (V0 m c)
  show after L0 (V0 m c) (Proc.devRef .tc main_v129) = _
  rw [hs]
  exact sG2_softmax (VG1 m c) _ (VG1_biased m c)

set_option maxHeartbeats 40000000 in
/-- Every weakly fair execution of the reference program terminates without a fault, the result buffer at the network
    of the arguments and the eight argument arrays unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129)
        = Cert.Gcn.net (x0 m c) (ed m c) (w1 m c) (b1 m c) (w2 m c) (b2 m c) (w3 m c) (b3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v129).trans (value_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.GcnValue

end
-- ==== Proof.lean ====
/-
  A three-layer graph convolution network on 50000 nodes and 800000 edges (plus one self loop per node), features
  256 → 128 → 128 → 40, a clamp at zero after the first two layers and a row-wise log-softmax after the third.

  The kernel program computes, per layer, the feature map h · W in a Pallas region (row blocks of 2000, bf16 operands —
  the identity on extended reals — into an f32 accumulator), the message passing (gather of the source rows, scaling by
  dinv(src) · dinv(dst), scatter-add into the target rows) in host operations, and the bias with the clamp (or, last,
  with the log-softmax) in a second Pallas region (row blocks of 5000).  The reference does all of it in host operations
  and recomputes the edge weights in every layer.  Over the extended reals the two are operation for operation the
  same function of the arguments, `Cert.Gcn.net` (Proof/Network.lean): no algebraic law joins them, so the inputs'
  finiteness is never used — what has to be shown is that each region's tiling reassembles the whole-array operation
  (a block of rows of a product, of a bias-and-clamp, of a log-softmax is the same operation on that block of rows)
  and that both programs' buffer contents, followed from operation to operation, end at `net`.

  * Proof/RegionProduct0/2/4, RegionBias1/3, RegionSoftmax5: what each region leaves in its result array.
  * Proof/KernelHost, KernelValue, KernelRun: the kernel program's host stretches, its result buffer, its run.
  * Proof/RefRun (the reference as a list of operations), ReferenceStages, ReferenceValue: the reference's result and run.
  The three frames: the two kernels' are the generated frame certificates; the reference's is its run with the result
  dropped.  The idealization rewrote nothing, so `preserves` is `True`.
-/
import proofs.«101067_j10136122819080_2_alg».proof.Defs
import proofs.«101067_j10136122819080_2_alg».proof.Proof.Gen.Kernel
import proofs.«101067_j10136122819080_2_alg».proof.Proof.Gen.Kernel.Skeleton
import proofs.«101067_j10136122819080_2_alg».proof.Proof.Gen.Kernel.Launch
import proofs.«101067_j10136122819080_2_alg».proof.Proof.Gen.Kernel.Points
import proofs.«101067_j10136122819080_2_alg».proof.Proof.Gen.Kernel.Frame
import proofs.«101067_j10136122819080_2_alg».proof.Proof.Gen.KernelIdeal
import proofs.«101067_j10136122819080_2_alg».proof.Proof.Gen.KernelIdeal.Skeleton
import proofs.«101067_j10136122819080_2_alg».proof.Proof.Gen.KernelIdeal.Launch
import proofs.«101067_j10136122819080_2_alg».proof.Proof.Gen.KernelIdeal.Points
import proofs.«101067_j10136122819080_2_alg».proof.Proof.Gen.KernelIdeal.Frame
import proofs.«101067_j10136122819080_2_alg».proof.Proof.Gen.ReferenceIdeal
import proofs.«101067_j10136122819080_2_alg».proof.Proof.Gen.Pre_finite_inputs
import proofs.«101067_j10136122819080_2_alg».proof.Proof.KernelRun
import proofs.«101067_j10136122819080_2_alg».proof.Proof.KernelValue
import proofs.«101067_j10136122819080_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.GcnValue.run_value m ρ)

/-- Both programs, from memories that agree on the arguments, end with the result at the network of those arguments. -/
theorem algebraic : Cert.algebraic_KernelIdeal_ReferenceIdeal := by
  intro m ρ m' ρ' _ hagree
  refine ⟨fun c => Cert.Gcn.net (Cert.KernelIdeal.GcnValue.x0 m c) (Cert.KernelIdeal.GcnValue.ed m c)
      (Cert.KernelIdeal.GcnValue.w1 m c) (Cert.KernelIdeal.GcnValue.b1 m c) (Cert.KernelIdeal.GcnValue.w2 m c)
      (Cert.KernelIdeal.GcnValue.b2 m c) (Cert.KernelIdeal.GcnValue.w3 m c) (Cert.KernelIdeal.GcnValue.b3 m c), ?_, ?_⟩
  · exact (θ_run Cert.KernelIdeal.defs _ _).mono
      (fun r h c => ⟨(h c).1.trans (Cert.KernelIdeal.GcnValue.result_eq m ρ c), (h c).2⟩)
      (Cert.KernelIdeal.GcnRun.run_value m ρ)
  · refine (θ_run Cert.ReferenceIdeal.defs _ _).mono (fun r h c => ⟨(h c).1.trans ?_, (h c).2⟩)
      (Cert.ReferenceIdeal.GcnValue.run_value m' ρ')
    obtain ⟨a0, a1, a2, a3, a4, a5, a6, a7⟩ := hagree c
    rw [show Cert.ReferenceIdeal.GcnValue.x0 m' c = Cert.KernelIdeal.GcnValue.x0 m c from a0,
      show Cert.ReferenceIdeal.GcnValue.ed m' c = Cert.KernelIdeal.GcnValue.ed m c from a1,
      show Cert.ReferenceIdeal.GcnValue.w1 m' c = Cert.KernelIdeal.GcnValue.w1 m c from a2,
      show Cert.ReferenceIdeal.GcnValue.b1 m' c = Cert.KernelIdeal.GcnValue.b1 m c from a3,
      show Cert.ReferenceIdeal.GcnValue.w2 m' c = Cert.KernelIdeal.GcnValue.w2 m c from a4,
      show Cert.ReferenceIdeal.GcnValue.b2 m' c = Cert.KernelIdeal.GcnValue.b2 m c from a5,
      show Cert.ReferenceIdeal.GcnValue.w3 m' c = Cert.KernelIdeal.GcnValue.w3 m c from a6,
      show Cert.ReferenceIdeal.GcnValue.b3 m' c = Cert.KernelIdeal.GcnValue.b3 m c from a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
